-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x600000 : Shape := ⟨2, ![2, 600000]⟩
abbrev S600000 : Shape := ⟨1, ![600000]⟩
abbrev S50000x128 : Shape := ⟨2, ![50000, 128]⟩
abbrev S400x128 : Shape := ⟨2, ![400, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400x128 : S_.BroadcastsInDim S400x128 (![] : Fin 0 → Fin S400x128.rank)
  reducesTo_S400x128_S_d0_1 : S400x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg17 : FVec F S128 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg14 : FVec F S128x128 .f32) (main_arg15 : FVec F S128 .f32) (main_arg16 : FVec F S128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_v63 main_v67

def fn_part2 {F : FTy → Type} [FloatOps F] (main_arg10 : FVec F S128 .f32) (main_arg11 : FVec F S400x128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S400x128 .f32 := Host.absf main_arg11
  let main_cst_14 : FVec F S_ .f32 := constant S_ .f32 0x7F800000#32
  let main_v40 : FVec F S400x128 .f32 := broadcastInDim S400x128 ![] bcast_S_S400x128 main_cst_14
  let main_v41 : IVec S400x128 1 := cmpf .olt main_v39 main_v40
  let main_c_15 : IVec S_ 1 := constantI S_ 1 1#1
  let main_v42 : IVec S_ 1 := (fun x v => Host.reduce IntOp.andi x v reducesTo_S400x128_S_d0_1 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_v48 main_v49 main_v50

def fn_part1 {F : FTy → Type} [FloatOps F] (main_arg7 : FVec F S128x128 .f32) (main_arg8 : FVec F S128 .f32) (main_arg9 : FVec F S128 .f32) (main_arg10 : FVec F S128 .f32) (main_arg11 : FVec F S400x128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : IVec S50000 32) (main_arg1 : IVec S2x600000 32) (main_arg2 : IVec S600000 32) (main_arg3 : FVec F S50000x128 .f32) (main_arg4 : FVec F S400x128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S400x128 .f32) (main_arg12 : FVec F S128x128 .f32) (main_arg13 : FVec F S128 .f32) (main_arg14 : FVec F S128x128 .f32) (main_arg15 : FVec F S128 .f32) (main_arg16 : FVec F S128 .f32) (main_arg17 : FVec F S128 .f32) : IVec S_ 1 :=
  let main_v0 : FVec F S50000x128 .f32 := Host.absf main_arg3
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400x128 .f32 := Host.absf main_arg4
  let main_cst_0 : FVec F S_ .f32 := constant S_ .f32 0x7F800000#32
  let main_v5 : FVec F S400x128 .f32 := broadcastInDim S400x128 ![] bcast_S_S400x128 main_cst_0
  let main_v6 : IVec S400x128 1 := cmpf .olt main_v4 main_v5
  let main_c_1 : IVec S_ 1 := constantI S_ 1 1#1
  let main_v7 : IVec S_ 1 := (fun x v => Host.reduce IntOp.andi x v reducesTo_S400x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S50000 : Shape := ⟨1, ![50000]⟩
abbrev S2x600000 : Shape := ⟨2, ![2, 600000]⟩
abbrev S600000 : Shape := ⟨1, ![600000]⟩
abbrev S50000x128 : Shape := ⟨2, ![50000, 128]⟩
abbrev S400x128 : Shape := ⟨2, ![400, 128]⟩
abbrev S128x128 : Shape := ⟨2, ![128, 128]⟩
abbrev S128 : Shape := ⟨1, ![128]⟩
abbrev S_ : Shape := ⟨0, ![]⟩
abbrev S50000x1 : Shape := ⟨2, ![50000, 1]⟩
abbrev S1x600000 : Shape := ⟨2, ![1, 600000]⟩
abbrev S600000x1 : Shape := ⟨2, ![600000, 1]⟩
abbrev S600000x128 : Shape := ⟨2, ![600000, 128]⟩
abbrev S6000x128 : Shape := ⟨2, ![6000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 94
  | .vmem => 32
  | .smem => 0
  | _ => 0

abbrev bufTy : (tb : Table) → Fin (tcTables nBuf tb) → BufTy
  | .hbm, ⟨0, _⟩ => ⟨S50000, .i32⟩
  | .hbm, ⟨1, _⟩ => ⟨S2x600000, .i32⟩
  | .hbm, ⟨2, _⟩ => ⟨S600000, .i32⟩
  | .hbm, ⟨3, _⟩ => ⟨S50000x128, .f32⟩
  | .hbm, ⟨4, _⟩ => ⟨S400x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S400x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S_, .i32⟩
  | .hbm, ⟨19, _⟩ => ⟨S50000, .i32⟩
  | .hbm, ⟨20, _⟩ => ⟨S50000, .i1⟩
  | .hbm, ⟨21, _⟩ => ⟨S_, .i32⟩
  | .hbm, ⟨22, _⟩ => ⟨S50000, .i32⟩
  | .hbm, ⟨23, _⟩ => ⟨S50000, .i32⟩
  | .hbm, ⟨24, _⟩ => ⟨S50000, .i32⟩
  | .hbm, ⟨25, _⟩ => ⟨S50000x1, .i32⟩
  | .hbm, ⟨26, _⟩ => ⟨S50000x128, .f32⟩
  | .hbm, ⟨27, _⟩ => ⟨S1x600000, .i32⟩
  | .hbm, ⟨28, _⟩ => ⟨S600000, .i32⟩
  | .hbm, ⟨29, _⟩ => ⟨S1x600000, .i32⟩
  | .hbm, ⟨30, _⟩ => ⟨S600000, .i32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S600000x128, .f32⟩
  | .hbm, ⟨50, _⟩ => ⟨S_, .f32⟩
  | .hbm, ⟨51, _⟩ => ⟨S50000x128, .f32⟩
  | .hbm, ⟨52, _⟩ => ⟨S600000x1, .i32⟩
  | .hbm, ⟨53, _⟩ => ⟨S50000x128, .f32⟩
  | .hbm, ⟨54, _⟩ => ⟨S128x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S50000x128, .f32⟩
  | .hbm, ⟨59, _⟩ => ⟨S1x600000, .i32⟩
  | .hbm, ⟨60, _⟩ => ⟨S600000, .i32⟩
  | .hbm, ⟨61, _⟩ => ⟨S1x600000, .i32⟩
  | .hbm, ⟨62, _⟩ => ⟨S600000, .i32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S_, .i32⟩
  | .hbm, ⟨73, _⟩ => ⟨S600000, .i32⟩
  | .hbm, ⟨74, _⟩ => ⟨S600000, .i1⟩
  | .hbm, ⟨75, _⟩ => ⟨S_, .i32⟩
  | .hbm, ⟨76, _⟩ => ⟨S600000, .i32⟩
  | .hbm, ⟨77, _⟩ => ⟨S600000, .i32⟩
  | .hbm, ⟨78, _⟩ => ⟨S600000, .i32⟩
  | .hbm, ⟨79, _⟩ => ⟨S600000x1, .i32⟩
  | .hbm, ⟨80, _⟩ => ⟨S600000x128, .f32⟩
  | .hbm, ⟨81, _⟩ => ⟨S600000x128, .f32⟩
  | .hbm, ⟨82, _⟩ => ⟨S_, .f32⟩
  | .hbm, ⟨83, _⟩ => ⟨S50000x128, .f32⟩
  | .hbm, ⟨84, _⟩ => ⟨S600000x1, .i32⟩
  | .hbm, ⟨85, _⟩ => ⟨S50000x128, .f32⟩
  | .hbm, ⟨86, _⟩ => ⟨S128x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S50000x128, .f32⟩
  | .hbm, ⟨91, _⟩ => ⟨S128x128, .f32⟩
  | .hbm, ⟨92, _⟩ => ⟨S1x128, .f32⟩
  | .hbm, ⟨93, _⟩ => ⟨S400x128, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S6000x128, .f32⟩
  | .local _ .vmem, ⟨5, _⟩ => ⟨S6000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S6000x128, .f32⟩
  | .local _ .vmem, ⟨15, _⟩ => ⟨S6000x128, .f32⟩
  | .local _ .vmem, ⟨16, _⟩ => ⟨S6000x128, .f32⟩
  | .local _ .vmem, ⟨17, _⟩ => ⟨S6000x128, .f32⟩
  | .local _ .vmem, ⟨18, _⟩ => ⟨S6000x128, .f32⟩
  | .local _ .vmem, ⟨19, _⟩ => ⟨S6000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S400x128, .f32⟩
  | .local _ .vmem, ⟨29, _⟩ => ⟨S128x128, .f32⟩
  | .local _ .vmem, ⟨30, _⟩ => ⟨S1x128, .f32⟩
  | .local _ .vmem, ⟨31, _⟩ => ⟨S400x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_5 : Ref sig .tc := ⟨.hbm, 63, rfl⟩
abbrev main_v38 : Ref sig .tc := ⟨.hbm, 64, rfl⟩
abbrev main_v39 : Ref sig .tc := ⟨.hbm, 65, rfl⟩
abbrev main_c_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_7 : Ref sig .tc := ⟨.hbm, 72, rfl⟩
abbrev main_v45 : Ref sig .tc := ⟨.hbm, 73, rfl⟩
abbrev main_v46 : Ref sig .tc := ⟨.hbm, 74, rfl⟩
abbrev main_c_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S400x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S400x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S400x128_S400x128_0_0 : ∀ a, (![0, 0] : Fin 2 → Nat) a + S400x128.size a ≤ S400x128.size a
  h_S400x128 : 0 < S400x128.numel
  broadcasts_S1x128_S400x128 : S1x128.Broadcasts S400x128
  gather_S50000x128_S50000x1_S50000x128_1_0_n_n_0_1_1128_wf : GatherDims.WF S50000x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  gather_S400x128_S600000x1_S600000x128_1_0_n_n_0_1_1128_wf : GatherDims.WF S400x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .f32 = 32 ∨ (Rect.block (s := S600000x128) S6000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S600000x128.size a
  hwx0_2 : ∀ i : grid0.Coords, EltTy.bits .f32 = 32 ∨ (Rect.block (s := S600000x128) S6000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S600000x128.size a
  hwx2_0 : ∀ i : grid2.Coords, EltTy.bits .f32 = 32 ∨ (Rect.block (s := S600000x128) S6000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x128.size a ≤ S600000x128.size a
  hwx2_1 : ∀ i : grid2.Coords, EltTy.bits .f32 = 32 ∨ (Rect.block (s := S600000x128) S6000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x128.size a ≤ S600000x128.size a
  hwx2_2 : ∀ i : grid2.Coords, EltTy.bits .f32 = 32 ∨ (Rect.block (s := S600000x128) S6000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S400x128.size a ≤ S400x128.size a
  hwx4_0 : ∀ i : grid4.Coords, EltTy.bits .f32 = 32 ∨ (Rect.block (s := S400x128) S400x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S400x128.size a ≤ S400x128.size a
  hwx4_3 : ∀ i : grid4.Coords, EltTy.bits .f32 = 32 ∨ (Rect.block (s := S400x128) S400x128.size (cc4_transform_3 i) (hinb4_3 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S400x128_S600000x1_S600000x128_1_0_n_n_0_1_1128 : GatherDims S400x128 S600000x1 S600000x128 where
  offsetDims := [1]
  collapsedSliceDims := [0]
  operandBatchingDims := []
  startIndicesBatchingDims := []
  startIndexMap := [0]
  indexVectorDim := 1
  sliceSizes := ![1, 128]
  wf := gather_S400x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_v17) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S6000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S6000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S6000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg11) S400x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v61) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S400x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000 : Shape := ⟨1, ![50000]⟩
abbrev S2x600000 : Shape := ⟨2, ![2, 600000]⟩
abbrev S600000 : Shape := ⟨1, ![600000]⟩
abbrev S50000x128 : Shape := ⟨2, ![50000, 128]⟩
abbrev S400x128 : Shape := ⟨2, ![400, 128]⟩
abbrev S128x128 : Shape := ⟨2, ![128, 128]⟩
abbrev S128 : Shape := ⟨1, ![128]⟩
abbrev S_ : Shape := ⟨0, ![]⟩
abbrev S50000x1 : Shape := ⟨2, ![50000, 1]⟩
abbrev S1x600000 : Shape := ⟨2, ![1, 600000]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 165
  | .vmem => 0
  | .smem => 0
  | _ => 0

abbrev hbmTy0_0 (i : Nat) : BufTy := match i % 128 with
  | 0 => ⟨S50000, .i32⟩
  | 1 => ⟨S2x600000, .i32⟩
  | 2 => ⟨S600000, .i32⟩
  | 3 => ⟨S50000x128, .f32⟩
  | 4 => ⟨S400x128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S400x128, .f32⟩
  | 12 => ⟨S128x128, .f32⟩
  | 13 => ⟨S128, .f32⟩
  | 14 => ⟨S128x128, .f32⟩
  | 15 => ⟨S128, .f32⟩
  | 16 => ⟨S128, .f32⟩
  | 17 => ⟨S128, .f32⟩
  | 18 => ⟨S_, .i32⟩
  | 19 => ⟨S50000, .i32⟩
  | 20 => ⟨S50000, .i1⟩
  | 21 => ⟨S_, .i32⟩
  | 22 => ⟨S50000, .i32⟩
  | 23 => ⟨S50000, .i32⟩
  | 24 => ⟨S50000, .i32⟩
  | 25 => ⟨S50000x1, .i32⟩
  | 26 => ⟨S50000x128, .f32⟩
  | 27 => ⟨S1x600000, .i32⟩
  | 28 => ⟨S600000, .i32⟩
  | 29 => ⟨S1x600000, .i32⟩
  | 30 => ⟨S600000, .i32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .f32⟩
  | 49 => ⟨S600000x128, .f32⟩
  | 50 => ⟨S_, .f32⟩
  | 51 => ⟨S50000x128, .f32⟩
  | 52 => ⟨S600000x1, .i32⟩
  | 53 => ⟨S50000x128, .f32⟩
  | 54 => ⟨S128x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S50000, .f32⟩
  | 61 => ⟨S50000x1, .f32⟩
  | 62 => ⟨S_, .f32⟩
  | 63 => ⟨S50000x1, .f32⟩
  | 64 => ⟨S50000x1, .f32⟩
  | 65 => ⟨S50000x128, .f32⟩
  | 66 => ⟨S50000x128, .f32⟩
  | 67 => ⟨S50000x128, .f32⟩
  | 68 => ⟨S_, .f32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S50000x128, .f32⟩
  | 75 => ⟨S50000x128, .f32⟩
  | 76 => ⟨S_, .f32⟩
  | 77 => ⟨S50000x1, .f32⟩
  | 78 => ⟨S50000x1, .f32⟩
  | 79 => ⟨S50000x1, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S128x128, .f32⟩
  | 92 => ⟨S400x128, .f32⟩
  | 93 => ⟨S1x128, .f32⟩
  | 94 => ⟨S400x128, .f32⟩
  | 95 => ⟨S400x128, .f32⟩
  | 96 => ⟨S1x600000, .i32⟩
  | 97 => ⟨S600000, .i32⟩
  | 98 => ⟨S1x600000, .i32⟩
  | 99 => ⟨S600000, .i32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .f32⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S600000x1, .i32⟩
  | 117 => ⟨S600000x128, .f32⟩
  | 118 => ⟨S600000x128, .f32⟩
  | 119 => ⟨S_, .f32⟩
  | 120 => ⟨S50000x128, .f32⟩
  | 121 => ⟨S600000x1, .i32⟩
  | 122 => ⟨S50000x128, .f32⟩
  | 123 => ⟨S128x128, .f32⟩
  | 124 => ⟨S50000x128, .f32⟩
  | 125 => ⟨S1x128, .f32⟩
  | 126 => ⟨S50000x128, .f32⟩
  | 127 => ⟨S50000x128, .f32⟩
  | _ => ⟨S50000, .i32⟩

abbrev hbmTy0_1 (i : Nat) : BufTy := match i % 128 with
  | 0 => ⟨S_, .f32⟩
  | 1 => ⟨S50000, .f32⟩
  | 2 => ⟨S50000x1, .f32⟩
  | 3 => ⟨S_, .f32⟩
  | 4 => ⟨S50000x1, .f32⟩
  | 5 => ⟨S50000x1, .f32⟩
  | 6 => ⟨S50000x128, .f32⟩
  | 7 => ⟨S50000x128, .f32⟩
  | 8 => ⟨S50000x128, .f32⟩
  | 9 => ⟨S_, .f32⟩
  | 10 => ⟨S50000, .f32⟩
  | 11 => ⟨S50000x1, .f32⟩
  | 12 => ⟨S_, .f32⟩
  | 13 => ⟨S50000x1, .f32⟩
  | 14 => ⟨S50000x1, .f32⟩
  | 15 => ⟨S50000x128, .f32⟩
  | 16 => ⟨S50000x128, .f32⟩
  | 17 => ⟨S_, .f32⟩
  | 18 => ⟨S50000x1, .f32⟩
  | 19 => ⟨S50000x1, .f32⟩
  | 20 => ⟨S50000x1, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S128x128, .f32⟩
  | 33 => ⟨S400x128, .f32⟩
  | 34 => ⟨S1x128, .f32⟩
  | 35 => ⟨S400x128, .f32⟩
  | 36 => ⟨S400x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call0_cst : Ref sig .tc := ⟨.hbm, 88, rfl⟩
abbrev main_call0_v0 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_10 : Ref sig .tc := ⟨.hbm, 100, rfl⟩
abbrev main_v68 : Ref sig .tc := ⟨.hbm, 101, rfl⟩
abbrev main_v69 : Ref sig .tc := ⟨.hbm, 102, rfl⟩
abbrev main_c_11 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_12 : Ref sig .tc := ⟨.hbm, 109, rfl⟩
abbrev main_v75 : Ref sig .tc := ⟨.hbm, 110, rfl⟩
abbrev main_v76 : Ref sig .tc := ⟨.hbm, 111, rfl⟩
abbrev main_c_13 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_14 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_15 : Ref sig .tc := ⟨.hbm, 128, rfl⟩
abbrev main_v91 : Ref sig .tc := ⟨.hbm, 129, rfl⟩
abbrev main_v92 : Ref sig .tc := ⟨.hbm, 130, rfl⟩
abbrev main_cst_16 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_17 : Ref sig .tc := ⟨.hbm, 137, rfl⟩
abbrev main_v98 : Ref sig .tc := ⟨.hbm, 138, rfl⟩
abbrev main_v99 : Ref sig .tc := ⟨.hbm, 139, rfl⟩
abbrev main_cst_18 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_19 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_call1_cst : Ref sig .tc := ⟨.hbm, 157, rfl⟩
abbrev main_call1_v0 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x128_S400x128_0_1 : S1x128.BroadcastsInDim S400x128 (![0, 1] : Fin 2 → Fin S400x128.rank)
  gather_S50000x128_S50000x1_S50000x128_1_0_n_n_0_1_1128_wf : GatherDims.WF S50000x128 S50000x1 S50000x128 [1] [0] [] [0] [] 1 ![1, 128]
  gather_S400x128_S600000x1_S600000x128_1_0_n_n_0_1_1128_wf : GatherDims.WF S400x128 S600000x1 S600000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S400x128_S128x128_S400x128_1_0_0_1_n_n_wf : DotDims.WF S400x128 S128x128 S400x128 [1] [0] [0] [1] [] []

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S400x128_S600000x1_S600000x128_1_0_n_n_0_1_1128 : GatherDims S400x128 S600000x1 S600000x128 where
  offsetDims := [1]
  collapsedSliceDims := [0]
  operandBatchingDims := []
  startIndicesBatchingDims := []
  startIndexMap := [0]
  indexVectorDim := 1
  sliceSizes := ![1, 128]
  wf := gather_S400x128_S600000x1_S600000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

class Facts : Prop extends Facts₀ where

variable [Facts]
-- ==== Proof.KernelRun.lean ====
/-
  The idealized kernel's run with every result buffer named.

  @main is ten segments: five stretches of host operations and five grid regions.  The buffer contents at each
  boundary are a fold from the launch memory (the imported frame module's `W0` … `W10`): a host stretch applies its
  operations, a region replaces its arrays by what its write-backs leave and keeps every other buffer.  The imported
  module proves the frame — termination, no fault, the arguments unchanged — from the last thread state, which holds
  EVERY unscoped buffer at `W10`.  Here the same launch theorem is read at all those buffers, so that the two result
  arrays are known to end at `W10`'s contents.
-/
import proofs.«147423_j37778532335712_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped TensorCore buffer ends at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The same, read at one TensorCore reference that is not scoped. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W10 m ρ c (Proc.devRef .tc b)) :=
  (θ_run defs _ _).mono (fun r h c b hb => h c _ (mem_uc b hb)) (run_all m ρ)

end Cert.KernelIdeal.Named

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Spec.lean ====
/-
  The mathematics both programs compute, index by index, on the extended reals.

  A node update takes the aggregated messages `x` (one row per node), multiplies by the transposed weight, adds the
  bias row, and then, row by row, subtracts the row's mean, scales by the reciprocal square root of the row's
  variance plus a small constant, multiplies by the gain row, adds the shift row and clamps below at zero.  Every row
  of the result depends on that row of `x` only: this is why a grid of row blocks computes the same array as one pass
  over all rows.
-/
import Idealize.ShloMosaic.PureOps.Ideal.Laws
import Idealize.ShloMosaic.Lib.ValueIdx
import proofs.«147423_j37778532335712_1_alg».proof.Proof.LibMatmul

open scoped BigOperators

noncomputable section

namespace Cert.Layer

open Idealize.ShloMosaic Idealize.ShloMosaic.ValueIdx

/-- The mean of a row of 128 entries: the sum divided by the float 128. -/
def rowMean (y : Fin 128 → EReal) : EReal :=
  Ideal.div (∑ k : Fin 128, y k) (Ideal.ofBits .f32 0x43000000#32)

/-- The mean of the squared deviations of a row from its mean. -/
def rowVar (y : Fin 128 → EReal) : EReal :=
  Ideal.div (∑ k : Fin 128, (y k - rowMean y) * (y k - rowMean y)) (Ideal.ofBits .f32 0x43000000#32)

/-- One entry of a normalised row: centred, scaled by `rsqrt (var + ε)`, times the gain, plus the shift, clamped at 0. -/
def normRow (y g be : Fin 128 → EReal) (j : Fin 128) : EReal :=
  max ((y j - rowMean y) * Ideal.rsqrt (rowVar y + Ideal.ofBits .f32 0x3727C5AC#32) * g j + be j)
    (Ideal.ofBits .f32 0x00000000#32)

/-- `x · wT + b` on an array of `A` rows: entry (r, j) is the sum over k of x (r, k) · wT (k, j), plus b (0, j). -/
def affine {A : Nat} (x : (⟨2, ![A, 128]⟩ : Shape).Idx → EReal) (wT : (⟨2, ![128, 128]⟩ : Shape).Idx → EReal)
    (b2 : (⟨2, ![1, 128]⟩ : Shape).Idx → EReal) : (⟨2, ![A, 128]⟩ : Shape).Idx → EReal :=
  fun i => Cert.LibMatmul.MM x wT i + b2 (ix2 (0 : Fin 1) (i 1))

/-- The node update on an array of `A` rows: each row of `affine x wT b2` normalised with gain row `g2`, shift row `be2`. -/
def nodeOut {A : Nat} (x : (⟨2, ![A, 128]⟩ : Shape).Idx → EReal) (wT : (⟨2, ![128, 128]⟩ : Shape).Idx → EReal)
    (b2 g2 be2 : (⟨2, ![1, 128]⟩ : Shape).Idx → EReal) : (⟨2, ![A, 128]⟩ : Shape).Idx → EReal :=
  fun i => normRow (fun k => affine x wT b2 (ix2 (i 0) k)) (fun k => g2 (ix2 (0 : Fin 1) k))
    (fun k => be2 (ix2 (0 : Fin 1) k)) (i 1)

/-- A row of `affine` depends on that row of `x` only. -/
theorem affine_rows {A A' : Nat} (x : (⟨2, ![A, 128]⟩ : Shape).Idx → EReal) (x' : (⟨2, ![A', 128]⟩ : Shape).Idx → EReal)
    (wT : (⟨2, ![128, 128]⟩ : Shape).Idx → EReal) (b2 : (⟨2, ![1, 128]⟩ : Shape).Idx → EReal)
    (p : Fin A) (p' : Fin A') (h : ∀ k : Fin 128, x (ix2 p k) = x' (ix2 p' k)) (q : Fin 128) :
    affine x wT b2 (ix2 p q) = affine x' wT b2 (ix2 p' q) := by
  unfold affine
  rw [Cert.LibMatmul.MM_apply, Cert.LibMatmul.MM_apply]
  exact congrArg (· + b2 (ix2 (0 : Fin 1) q)) (Finset.sum_congr rfl fun k _ => by rw [h k])

/-- A row of the node update depends on that row of `x` only. -/
theorem nodeOut_rows {A A' : Nat} (x : (⟨2, ![A, 128]⟩ : Shape).Idx → EReal) (x' : (⟨2, ![A', 128]⟩ : Shape).Idx → EReal)
    (wT : (⟨2, ![128, 128]⟩ : Shape).Idx → EReal) (b2 g2 be2 : (⟨2, ![1, 128]⟩ : Shape).Idx → EReal)
    (p : Fin A) (p' : Fin A') (h : ∀ k : Fin 128, x (ix2 p k) = x' (ix2 p' k)) (q : Fin 128) :
    nodeOut x wT b2 g2 be2 (ix2 p q) = nodeOut x' wT b2 g2 be2 (ix2 p' q) := by
  unfold nodeOut
  have e : (fun k => affine x wT b2 (ix2 ((ix2 p q : (⟨2, ![A, 128]⟩ : Shape).Idx) 0) k))
      = (fun k => affine x' wT b2 (ix2 ((ix2 p' q : (⟨2, ![A', 128]⟩ : Shape).Idx) 0) k)) :=
    funext fun k => affine_rows x x' wT b2 p p' h k
  rw [e]; rfl

end Cert.Layer

end
-- ==== Proof.LibRowBias.lean ====
/-
  A bias vector laid out as a one-row matrix: reshaping a vector of length n to [1, n] and broadcasting it into
  [1, n] along the second axis are the same array, entry (0, q) being entry q of the vector.
-/
import Idealize.ShloMosaic.Lib.Pipeline.Value
import Idealize.ShloMosaic.Lib.ValueIdx
import Idealize.ShloMosaic.Lib.ValueLayout

noncomputable section

namespace Cert.Gcn

open Idealize.ShloMosaic Idealize.ShloMosaic.ValueIdx

theorem shapeCast_row {α : Type} {n : Nat} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) (hn : n ≠ 1) :
    shapeCast ⟨2, ![1, n]⟩ b h = broadcastInDim ⟨2, ![1, n]⟩ (![1] : Fin 1 → Fin 2) h' b := by
  funext j
  obtain ⟨u, q, rfl⟩ : ∃ (u : Fin 1) (q : Fin n), j = ix2 u q := ⟨j 0, j 1, eq_ix2 j⟩
  rw [shapeCast_a_1a_apply]
  refine (broadcastInDim_apply _ h' b _ (ix1 q) fun a => ?_).symm
  match a with
  | ⟨0, _⟩ =>
    show q.val = if n = 1 then 0 else q.val
    rw [if_neg hn]

end Cert.Gcn

end
-- ==== Proof.KernelHost.lean ====
/-
  The host stretches of the idealized kernel's @main, one at a time, from ANY buffer contents `X`: what each stretch
  leaves in the buffers a region or a later stretch reads, written as the reference's stage of the same name-free
  mathematics (a gather of rows at wrapped indices, a scatter-add of the edge messages into their destination rows, a
  transposed weight, a bias / gain / shift vector laid out as one row).  The kernel reshapes a vector to one row where
  the reference broadcasts it to one row: the same array.
-/
import proofs.«147423_j37778532335712_1_alg».proof.Proof.Gen.KernelIdeal.Frame
import proofs.«147423_j37778532335712_1_alg».proof.Proof.Gen.ReferenceIdeal.Read
import proofs.«147423_j37778532335712_1_alg».proof.Proof.LibRowBias

set_option maxRecDepth 16384

noncomputable section

namespace Cert.Layer.KHost

open Idealize.ShloMosaic Idealize.ShloMosaic.TcCoe Idealize.SL.Sem Idealize.ShloMosaic.StableHlo
open Cert.KernelIdeal Cert.KernelIdeal.Gen
open Cert.ReferenceIdeal.Read

abbrev KVal := Valuation Cert.KernelIdeal.τ Cert.KernelIdeal.sig (Elt Ideal)

/-- A vector reshaped to one row is the vector broadcast to one row. -/
theorem row_eq (b : (⟨Cert.KernelIdeal.S128, .f32⟩ : BufTy).Contents (Elt Ideal)) :
    shapeCast Cert.KernelIdeal.S1x128 b shapeCasts_S128_S1x128
      = broadcastInDim Cert.ReferenceIdeal.S1x128 ![1] Cert.ReferenceIdeal.Facts₀.bcast_S128_S1x128_1 b :=
  Cert.Gcn.shapeCast_row b _ _ (by decide)

/-! ## Stretch 0: the node table, the source rows, the relation rows, the destination indices -/

theorem s0_v17 (X : KVal) :
    StableHlo.after (hostOps0 (F := Ideal)) X (Proc.devRef .tc main_v17)
      = val_main_v24 (F := Ideal) (X (Proc.devRef .tc main_arg0)) (X (Proc.devRef .tc main_arg1)) (X (Proc.devRef .tc main_arg3)) := by
  after_results_simp
  rfl

theorem s0_v24 (X : KVal) :
    StableHlo.after (hostOps0 (F := Ideal)) X (Proc.devRef .tc main_v24)
      = val_main_v17 (F := Ideal) (X (Proc.devRef .tc main_arg2)) (X (Proc.devRef .tc main_arg4)) := by
  after_results_simp
  rfl

theorem s0_v10 (X : KVal) :
    StableHlo.after (hostOps0 (F := Ideal)) X (Proc.devRef .tc main_v10)
      = val_main_v10 (F := Ideal) (X (Proc.devRef .tc main_arg1)) := by
  after_results_simp
  rfl

/-! ## Stretch 1: layer 1's aggregation and the node update's operands -/

theorem s1_v28 (X : KVal) (a0 a1 a2 a3 a4)
    (h10 : X (Proc.devRef .tc main_v10) = val_main_v10 (F := Ideal) a1)
    (h25 : X (Proc.devRef .tc main_v25) = val_main_v25 (F := Ideal) a0 a1 a2 a3 a4) :
    StableHlo.after (hostOps1 (F := Ideal)) X (Proc.devRef .tc main_v28)
      = val_main_v28 (F := Ideal) a0 a1 a2 a3 a4 := by
  after_results_simp
  rw [h10, h25]
  rfl

theorem s1_v29 (X : KVal) :
    StableHlo.after (hostOps1 (F := Ideal)) X (Proc.devRef .tc main_v29) = val_main_v29 (F := Ideal) (X (Proc.devRef .tc main_arg7)) := by
  after_results_simp
  rfl

theorem s1_v30 (X : KVal) :
    StableHlo.after (hostOps1 (F := Ideal)) X (Proc.devRef .tc main_v30) = val_main_v31 (F := Ideal) (X (Proc.devRef .tc main_arg8)) := by
  after_results_simp
  exact row_eq _

theorem s1_v31 (X : KVal) :
    StableHlo.after (hostOps1 (F := Ideal)) X (Proc.devRef .tc main_v31) = val_main_v52 (F := Ideal) (X (Proc.devRef .tc main_arg9)) := by
  after_results_simp
  exact row_eq _

theorem s1_v32 (X : KVal) :
    StableHlo.after (hostOps1 (F := Ideal)) X (Proc.devRef .tc main_v32) = val_main_v55 (F := Ideal) (X (Proc.devRef .tc main_arg10)) := by
  after_results_simp
  exact row_eq _

/-! ## Stretch 2: layer 2's source rows (of layer 1's output), relation rows, destination indices -/

theorem s2_v44 (X : KVal) (a0 a1 a2 a3 a4 a7 a8 a9 a10)
    (h1 : X (Proc.devRef .tc main_arg1) = a1)
    (h33 : X (Proc.devRef .tc main_v33) = val_main_v58 (F := Ideal) a0 a1 a2 a3 a4 a7 a8 a9 a10) :
    StableHlo.after (hostOps2 (F := Ideal)) X (Proc.devRef .tc main_v44)
      = val_main_v81 (F := Ideal) a0 a1 a2 a3 a4 a7 a8 a9 a10 := by
  after_results_simp
  rw [h1, h33]
  rfl

theorem s2_v51 (X : KVal) :
    StableHlo.after (hostOps2 (F := Ideal)) X (Proc.devRef .tc main_v51)
      = val_main_v74 (F := Ideal) (X (Proc.devRef .tc main_arg2)) (X (Proc.devRef .tc main_arg11)) := by
  after_results_simp
  rfl

theorem s2_v37 (X : KVal) :
    StableHlo.after (hostOps2 (F := Ideal)) X (Proc.devRef .tc main_v37) = val_main_v67 (F := Ideal) (X (Proc.devRef .tc main_arg1)) := by
  after_results_simp
  rfl

/-! ## Stretch 3: layer 2's aggregation and the node update's operands -/

theorem s3_v55 (X : KVal) (a0 a1 a2 a3 a4 a7 a8 a9 a10 a11)
    (h37 : X (Proc.devRef .tc main_v37) = val_main_v67 (F := Ideal) a1)
    (h52 : X (Proc.devRef .tc main_v52) = val_main_v82 (F := Ideal) a0 a1 a2 a3 a4 a7 a8 a9 a10 a11) :
    StableHlo.after (hostOps3 (F := Ideal)) X (Proc.devRef .tc main_v55)
      = val_main_v85 (F := Ideal) a0 a1 a2 a3 a4 a7 a8 a9 a10 a11 := by
  after_results_simp
  rw [h37, h52]
  rfl

theorem s3_v56 (X : KVal) :
    StableHlo.after (hostOps3 (F := Ideal)) X (Proc.devRef .tc main_v56) = val_main_v86 (F := Ideal) (X (Proc.devRef .tc main_arg14)) := by
  after_results_simp
  rfl

theorem s3_v57 (X : KVal) :
    StableHlo.after (hostOps3 (F := Ideal)) X (Proc.devRef .tc main_v57) = val_main_v88 (F := Ideal) (X (Proc.devRef .tc main_arg15)) := by
  after_results_simp
  exact row_eq _

theorem s3_v58 (X : KVal) :
    StableHlo.after (hostOps3 (F := Ideal)) X (Proc.devRef .tc main_v58) = val_main_v109 (F := Ideal) (X (Proc.devRef .tc main_arg16)) := by
  after_results_simp
  exact row_eq _

theorem s3_v59 (X : KVal) :
    StableHlo.after (hostOps3 (F := Ideal)) X (Proc.devRef .tc main_v59) = val_main_v112 (F := Ideal) (X (Proc.devRef .tc main_arg17)) := by
  after_results_simp
  exact row_eq _

/-! ## Stretch 4: the relation projection's operands -/

theorem s4_v61 (X : KVal) :
    StableHlo.after (hostOps4 (F := Ideal)) X (Proc.devRef .tc main_v61) = val_main_v116 (F := Ideal) (X (Proc.devRef .tc main_arg12)) := by
  after_results_simp
  rfl

theorem s4_v62 (X : KVal) :
    StableHlo.after (hostOps4 (F := Ideal)) X (Proc.devRef .tc main_v62) = val_main_v118 (F := Ideal) (X (Proc.devRef .tc main_arg13)) := by
  after_results_simp
  exact row_eq _

end Cert.Layer.KHost

end
-- ==== Proof.MsgPayload.lean ====
/-
  The values the kernel's three pointwise bodies store, at the ideal floats.

  The two message bodies store the entrywise product of the two blocks they load.  The relation projection stores
  the matrix product of its first operand with the transposed weight, plus the bias row repeated down the rows:
  narrowing to a shorter float format is the identity on extended reals, a reshape to the same shape is the
  identity, and a matrix product accumulated into the zero array is the plain sum of products.
-/
import proofs.«147423_j37778532335712_1_alg».proof.Proof.Spec
import proofs.«147423_j37778532335712_1_alg».proof.Proof.LibMatmul
import proofs.«147423_j37778532335712_1_alg».proof.Proof.Gen.KernelIdeal.Skeleton
import Idealize.ShloMosaic.Lib.Pipeline.Value
import Idealize.ShloMosaic.Lib.ValueLayout

open scoped BigOperators

noncomputable section

namespace Cert.Layer

open Idealize.ShloMosaic Idealize.ShloMosaic.ValueIdx

namespace MsgPayload

/-- One row repeated down `a` rows reads, at any index, the row's entry in that index's column. -/
theorem row_rep {α : Type} {a b : ℕ} (v : (⟨2, ![1, b]⟩ : Shape).Idx → α)
    (h : (⟨2, ![1, b]⟩ : Shape).Broadcasts ⟨2, ![a, b]⟩) :
    broadcastTo ⟨2, ![a, b]⟩ v h = fun i => v (ix2 (0 : Fin 1) (i 1)) := by
  funext i
  exact (congrArg (broadcastTo ⟨2, ![a, b]⟩ v h) (eq_ix2 i)).trans (broadcastTo_1b_ab_apply v h (i 0) (i 1))

end MsgPayload

/-- The first message body stores the entrywise product of the two blocks it loads. -/
theorem k0_pay1_eq (x0 x1 : Vec Ideal Cert.KernelIdeal.S6000x128 .f32) :
    Cert.KernelIdeal.Gen.k0_pay1 (F := Ideal) x0 x1 = fun i => x0 i * x1 i := by
  unfold Cert.KernelIdeal.Gen.k0_pay1
  simp only [shapeCast_self]
  rfl

/-- The second message body stores the entrywise product of the two blocks it loads. -/
theorem k2_pay1_eq (x0 x1 : Vec Ideal Cert.KernelIdeal.S6000x128 .f32) :
    Cert.KernelIdeal.Gen.k2_pay1 (F := Ideal) x0 x1 = fun i => x0 i * x1 i := by
  unfold Cert.KernelIdeal.Gen.k2_pay1
  simp only [shapeCast_self]
  rfl

/-- The relation projection stores `x · wT + b`. -/
theorem k4_pay1_eq (x0 : Vec Ideal Cert.KernelIdeal.S400x128 .f32) (x1 : Vec Ideal Cert.KernelIdeal.S128x128 .f32)
    (x2 : Vec Ideal Cert.KernelIdeal.S1x128 .f32) :
    Cert.KernelIdeal.Gen.k4_pay1 (F := Ideal) x0 x1 x2 = affine (A := 400) x0 x1 x2 := by
  unfold Cert.KernelIdeal.Gen.k4_pay1
  simp only [shapeCast_self]
  funext i
  rw [addf_apply]
  unfold affine
  congr 1
  · exact congrFun (Cert.LibMatmul.matmul_zero_eq
      Cert.KernelIdeal.dot_S400x128_S128x128_S400x128_1_0_0_1_n_n rfl rfl rfl rfl rfl rfl none _ _) i
  · exact congrFun (MsgPayload.row_rep x2 _) i

end Cert.Layer

end
-- ==== Proof.MsgRegion0.lean ====
/-
  The array the first message region leaves: the entrywise product of its two operand arrays.

  The region runs over 100 row blocks of 6000 rows.  At every grid point the three windows sit on the same rows of
  their arrays, the body stores the entrywise product of the two blocks it loads, and the write-back puts that
  block where the output's rectangle says.  Row r is covered by the point r / 6000, so the blocks cover the array
  and the array ends holding the product, index by index.
-/
import proofs.«147423_j37778532335712_1_alg».proof.Proof.MsgPayload
import proofs.«147423_j37778532335712_1_alg».proof.Proof.Gen.KernelIdeal.Frame
import Idealize.ShloMosaic.Lib.Pipeline.Value

noncomputable section

namespace Cert.Layer

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace MsgRegion0

theorem hz : (![0, 0] : Fin 2 → Nat) = fun _ => 0 := funext fun a => by fin_cases a <;> rfl

/-- The entrywise product of two [600000, 128] arrays of extended reals. -/
abbrev mulArr (x y : S600000x128.Idx → EReal) : S600000x128.Idx → EReal := fun i => x i * y i

/-- The entrywise product of the two operand arrays as the region finds them. -/
abbrev prod (c : Dev nD) : S600000x128.Idx → EReal := mulArr (V c main_v17) (V c main_v24)

/-- Two reads at indices that agree with a third are the product array read there. -/
theorem read_mul (x y : S600000x128.Idx → EReal) (i0 i1 i2 : S600000x128.Idx) (h0 : i0 = i2) (h1 : i1 = i2) :
    x i0 * y i1 = mulArr x y i2 := by
  subst h0 h1; rfl

/-- The printed index maps, decided over the grid: at point t every window sits on row block t, column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the product. -/
theorem flushed_eq (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero hz]
  simp only [View.ld_unit_zero (S := S6000x128) hz]
  rw [k0_pay1_eq]
  obtain ⟨e0, e1, e2, e3, e4, e5⟩ := idx_facts t
  funext j
  have h0 : ((cfg0.win 0).blk t).view.emb j = ((cfg0.win 2).blk t).view.emb j := by
    funext a; apply Fin.ext
    match a with
    | ⟨0, _⟩ => show win0_0.index t (0 : Fin 2) * 6000 + 1 * (j 0).val = win0_2.index t (0 : Fin 2) * 6000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 6000 + 1 * (j 0).val = win0_2.index t (0 : Fin 2) * 6000 + 1 * (j 0).val; omega
    | ⟨1, _⟩ => show win0_1.index t (1 : Fin 2) * 128 + 1 * (j 1).val = win0_2.index t (1 : Fin 2) * 128 + 1 * (j 1).val; omega
  exact read_mul (V c main_v17) (V c main_v24) (((cfg0.win 0).blk t).view.emb j) (((cfg0.win 1).blk t).view.emb j)
    (((cfg0.win 2).blk t).view.emb j) h0 h1

/-- An index of the array is in point t's block iff each coordinate is in the block's range on its axis. -/
theorem mem_blk (t : Fin cfg0.N) (i : S600000x128.Idx) :
    i ∈ ((cfg0.win 2).blk t).view.set ↔ ∀ a : Fin 2, win0_2.index t a * S6000x128.size a ≤ (i a).val
      ∧ (i a).val < win0_2.index t a * S6000x128.size a + S6000x128.size a := by
  show i ∈ ((View.whole main_v25).slice (win0_2.rect t)).set ↔ _
  rw [View.set_slice_whole, Rect.mem_set_unit]
  exact Iff.rfl

/-- Every index of the array is in some point's block: row r is in the block of point r / 6000. -/
theorem cover (i : S600000x128.Idx) :
    ∃ t : Fin cfg0.N, (cfg0.win 2).flush t = true ∧ i ∈ ((cfg0.win 2).blk t).view.set := by
  have hi0 : (i 0).val < 600000 := (i 0).isLt
  have hi1 : (i 1).val < 128 := (i 1).isLt
  have hN : cfg0.N = 100 := by decide
  obtain ⟨t, ht⟩ : ∃ t : Fin cfg0.N, t.val = (i 0).val / 6000 := ⟨⟨(i 0).val / 6000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 6000 ≤ (i 0).val ∧ (i 0).val < win0_2.index t (0 : Fin 2) * 6000 + 6000; omega
  | ⟨1, _⟩ => show win0_2.index t (1 : Fin 2) * 128 ≤ (i 1).val ∧ (i 1).val < win0_2.index t (1 : Fin 2) * 128 + 128; omega

end MsgRegion0

/-- The array the region leaves is the entrywise product of its two operand arrays as the region finds them. -/
theorem region0_arr (c : Dev nD) :
    (dat0 (F := Ideal) V c).arrAt 2 cfg0.N
      = fun i => HMul.hMul (α := EReal) (β := EReal) (γ := EReal) (V c main_v17 i) (V c main_v24 i) :=
  (dat0 V c).arrAt_eq_of_cover 2 (MsgRegion0.prod V c) (fun t _ => MsgRegion0.flushed_eq V c t) MsgRegion0.cover

end Cert.Layer

end
-- ==== Proof.MsgRegion2.lean ====
/-
  The array the second message region leaves: the entrywise product of its two operand arrays.

  The region runs over 100 row blocks of 6000 rows.  At every grid point the three windows sit on the same rows of
  their arrays, the body stores the entrywise product of the two blocks it loads, and the write-back puts that
  block where the output's rectangle says.  Row r is covered by the point r / 6000, so the blocks cover the array
  and the array ends holding the product, index by index.
-/
import proofs.«147423_j37778532335712_1_alg».proof.Proof.MsgPayload
import proofs.«147423_j37778532335712_1_alg».proof.Proof.Gen.KernelIdeal.Frame
import Idealize.ShloMosaic.Lib.Pipeline.Value

noncomputable section

namespace Cert.Layer

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace MsgRegion2

theorem hz : (![0, 0] : Fin 2 → Nat) = fun _ => 0 := funext fun a => by fin_cases a <;> rfl

/-- The entrywise product of two [600000, 128] arrays of extended reals. -/
abbrev mulArr (x y : S600000x128.Idx → EReal) : S600000x128.Idx → EReal := fun i => x i * y i

/-- The entrywise product of the two operand arrays as the region finds them. -/
abbrev prod (c : Dev nD) : S600000x128.Idx → EReal := mulArr (V c main_v44) (V c main_v51)

/-- Two reads at indices that agree with a third are the product array read there. -/
theorem read_mul (x y : S600000x128.Idx → EReal) (i0 i1 i2 : S600000x128.Idx) (h0 : i0 = i2) (h1 : i1 = i2) :
    x i0 * y i1 = mulArr x y i2 := by
  subst h0 h1; rfl

/-- The printed index maps, decided over the grid: at point t every window sits on row block t, column block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the product. -/
theorem flushed_eq (c : Dev nD) (t : Fin cfg2.N) :
    (dat2 V c).flushed 2 t = ((cfg2.win 2).blk t).view.read (Elt Ideal) (prod V c) := by
  show (cfg2.win 2).cut (grid2.coords t) ((dat2 V c).after 2 t) = _
  rw [after2_2]
  unfold out2_2
  rw [View.canon_unit_zero hz]
  simp only [View.ld_unit_zero (S := S6000x128) hz]
  rw [k2_pay1_eq]
  obtain ⟨e0, e1, e2, e3, e4, e5⟩ := idx_facts t
  funext j
  have h0 : ((cfg2.win 0).blk t).view.emb j = ((cfg2.win 2).blk t).view.emb j := by
    funext a; apply Fin.ext
    match a with
    | ⟨0, _⟩ => show win2_0.index t (0 : Fin 2) * 6000 + 1 * (j 0).val = win2_2.index t (0 : Fin 2) * 6000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 6000 + 1 * (j 0).val = win2_2.index t (0 : Fin 2) * 6000 + 1 * (j 0).val; omega
    | ⟨1, _⟩ => show win2_1.index t (1 : Fin 2) * 128 + 1 * (j 1).val = win2_2.index t (1 : Fin 2) * 128 + 1 * (j 1).val; omega
  exact read_mul (V c main_v44) (V c main_v51) (((cfg2.win 0).blk t).view.emb j) (((cfg2.win 1).blk t).view.emb j)
    (((cfg2.win 2).blk t).view.emb j) h0 h1

/-- An index of the array is in point t's block iff each coordinate is in the block's range on its axis. -/
theorem mem_blk (t : Fin cfg2.N) (i : S600000x128.Idx) :
    i ∈ ((cfg2.win 2).blk t).view.set ↔ ∀ a : Fin 2, win2_2.index t a * S6000x128.size a ≤ (i a).val
      ∧ (i a).val < win2_2.index t a * S6000x128.size a + S6000x128.size a := by
  show i ∈ ((View.whole main_v52).slice (win2_2.rect t)).set ↔ _
  rw [View.set_slice_whole, Rect.mem_set_unit]
  exact Iff.rfl

/-- Every index of the array is in some point's block: row r is in the block of point r / 6000. -/
theorem cover (i : S600000x128.Idx) :
    ∃ t : Fin cfg2.N, (cfg2.win 2).flush t = true ∧ i ∈ ((cfg2.win 2).blk t).view.set := by
  have hi0 : (i 0).val < 600000 := (i 0).isLt
  have hi1 : (i 1).val < 128 := (i 1).isLt
  have hN : cfg2.N = 100 := by decide
  obtain ⟨t, ht⟩ : ∃ t : Fin cfg2.N, t.val = (i 0).val / 6000 := ⟨⟨(i 0).val / 6000, by rw [hN]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 6000 ≤ (i 0).val ∧ (i 0).val < win2_2.index t (0 : Fin 2) * 6000 + 6000; omega
  | ⟨1, _⟩ => show win2_2.index t (1 : Fin 2) * 128 ≤ (i 1).val ∧ (i 1).val < win2_2.index t (1 : Fin 2) * 128 + 128; omega

end MsgRegion2

/-- The array the region leaves is the entrywise product of its two operand arrays as the region finds them. -/
theorem region2_arr (c : Dev nD) :
    (dat2 (F := Ideal) V c).arrAt 2 cfg2.N
      = fun i => HMul.hMul (α := EReal) (β := EReal) (γ := EReal) (V c main_v44 i) (V c main_v51 i) :=
  (dat2 V c).arrAt_eq_of_cover 2 (MsgRegion2.prod V c) (fun t _ => MsgRegion2.flushed_eq V c t) MsgRegion2.cover

end Cert.Layer

end
-- ==== Proof.RelRegion4.lean ====
/-
  The array the relation projection leaves: its first operand times the transposed weight, plus the bias row.

  The region has one grid point and every window is its whole array: the body loads the three operands, stores
  `x · wT + b`, and the write-back puts that block over the whole output array.
-/
import proofs.«147423_j37778532335712_1_alg».proof.Proof.MsgPayload
import proofs.«147423_j37778532335712_1_alg».proof.Proof.Gen.KernelIdeal.Frame
import Idealize.ShloMosaic.Lib.Pipeline.Value

noncomputable section

namespace Cert.Layer

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace RelRegion4

theorem hz : (![0, 0] : Fin 2 → Nat) = fun _ => 0 := funext fun a => by fin_cases a <;> rfl

/-- `x · wT + b` of the three operand arrays as the region finds them. -/
abbrev proj (c : Dev nD) : S400x128.Idx → EReal :=
  affine (A := 400) (V c main_arg11) (V c main_v61) (V c main_v62)

/-- `x · wT + b` at an index, for operands that agree entry by entry and indices that agree. -/
theorem affine_at (x0 x0' : S400x128.Idx → EReal) (x1 x1' : S128x128.Idx → EReal) (x2 x2' : S1x128.Idx → EReal)
    (j j' : S400x128.Idx) (h0 : ∀ i, x0 i = x0' i) (h1 : ∀ i, x1 i = x1' i) (h2 : ∀ i, x2 i = x2' i) (hj : j = j') :
    affine (A := 400) x0 x1 x2 j = affine (A := 400) x0' x1' x2' j' := by
  obtain rfl : x0 = x0' := funext h0
  obtain rfl : x1 = x1' := funext h1
  obtain rfl : x2 = x2' := funext h2
  subst hj; rfl

/-- The printed index maps, decided over the grid: every window sits on block (0, 0). -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- What the one point writes back is the block of `x · wT + b` its rectangle names. -/
theorem flushed_eq (c : Dev nD) (t : Fin cfg4.N) :
    (dat4 V c).flushed 3 t = ((cfg4.win 3).blk t).view.read (Elt Ideal) (proj V c) := by
  show (cfg4.win 3).cut (grid4.coords t) ((dat4 V c).after 3 t) = _
  rw [after4_3]
  unfold out4_3
  rw [View.canon_unit_zero hz]
  simp only [View.ld_unit_zero (S := S400x128) hz, View.ld_unit_zero (S := S128x128) hz, View.ld_unit_zero (S := S1x128) hz]
  rw [k4_pay1_eq]
  obtain ⟨e0, e1, e2, e3, e4, e5, e6, e7⟩ := idx_facts t
  funext j
  refine affine_at (iblk4 V c 0 t) (V c main_arg11) (iblk4 V c 1 t) (V c main_v61) (iblk4 V c 2 t) (V c main_v62)
    j (((cfg4.win 3).blk t).view.emb j) (fun i => ?_) (fun i => ?_) (fun i => ?_) ?_
  · have he : ((cfg4.win 0).blk t).view.emb i = i := by
      funext a; apply Fin.ext
      match a with
      | ⟨0, _⟩ => show win4_0.index t (0 : Fin 2) * 400 + 1 * (i 0).val = (i 0).val; omega
      | ⟨1, _⟩ => show win4_0.index t (1 : Fin 2) * 128 + 1 * (i 1).val = (i 1).val; omega
    show V c main_arg11 (((cfg4.win 0).blk t).view.emb i) = V c main_arg11 i
    rw [he]
  · have he : ((cfg4.win 1).blk t).view.emb i = i := by
      funext a; apply Fin.ext
      match a with
      | ⟨0, _⟩ => show win4_1.index t (0 : Fin 2) * 128 + 1 * (i 0).val = (i 0).val; omega
      | ⟨1, _⟩ => show win4_1.index t (1 : Fin 2) * 128 + 1 * (i 1).val = (i 1).val; omega
    show V c main_v61 (((cfg4.win 1).blk t).view.emb i) = V c main_v61 i
    rw [he]
  · have he : ((cfg4.win 2).blk t).view.emb i = i := by
      funext a; apply Fin.ext
      match a with
      | ⟨0, _⟩ => show win4_2.index t (0 : Fin 2) * 1 + 1 * (i 0).val = (i 0).val; omega
      | ⟨1, _⟩ => show win4_2.index t (1 : Fin 2) * 128 + 1 * (i 1).val = (i 1).val; omega
    show V c main_v62 (((cfg4.win 2).blk t).view.emb i) = V c main_v62 i
    rw [he]
  · funext a; apply Fin.ext
    match a with
    | ⟨0, _⟩ => show (j 0).val = win4_3.index t (0 : Fin 2) * 400 + 1 * (j 0).val; omega
    | ⟨1, _⟩ => show (j 1).val = win4_3.index t (1 : Fin 2) * 128 + 1 * (j 1).val; omega

/-- An index of the array is in the point's block iff each coordinate is in the block's range on its axis. -/
theorem mem_blk (t : Fin cfg4.N) (i : S400x128.Idx) :
    i ∈ ((cfg4.win 3).blk t).view.set ↔ ∀ a : Fin 2, win4_3.index t a * S400x128.size a ≤ (i a).val
      ∧ (i a).val < win4_3.index t a * S400x128.size a + S400x128.size a := by
  show i ∈ ((View.whole main_v63).slice (win4_3.rect t)).set ↔ _
  rw [View.set_slice_whole, Rect.mem_set_unit]
  exact Iff.rfl

/-- Every index of the array is in the one point's block. -/
theorem cover (i : S400x128.Idx) :
    ∃ t : Fin cfg4.N, (cfg4.win 3).flush t = true ∧ i ∈ ((cfg4.win 3).blk t).view.set := by
  have hi0 : (i 0).val < 400 := (i 0).isLt
  have hi1 : (i 1).val < 128 := (i 1).isLt
  have hN : cfg4.N = 1 := by decide
  obtain ⟨t, ht⟩ : ∃ t : Fin cfg4.N, t.val = 0 := ⟨⟨0, by rw [hN]; omega⟩, rfl⟩
  obtain ⟨e0, e1, e2, e3, e4, e5, e6, e7⟩ := idx_facts t
  refine ⟨t, flush4_3 t, ?_⟩
  rw [mem_blk]
  intro a
  match a with
  | ⟨0, _⟩ => show win4_3.index t (0 : Fin 2) * 400 ≤ (i 0).val ∧ (i 0).val < win4_3.index t (0 : Fin 2) * 400 + 400; omega
  | ⟨1, _⟩ => show win4_3.index t (1 : Fin 2) * 128 ≤ (i 1).val ∧ (i 1).val < win4_3.index t (1 : Fin 2) * 128 + 128; omega

end RelRegion4

/-- The array the relation projection leaves is `x · wT + b` of its operand arrays as the region finds them. -/
theorem region4_arr (c : Dev nD) :
    (dat4 (F := Ideal) V c).arrAt 3 cfg4.N
      = affine (A := 400) (V c main_arg11) (V c main_v61) (V c main_v62) :=
  (dat4 V c).arrAt_eq_of_cover 3 (RelRegion4.proj V c) (fun t _ => RelRegion4.flushed_eq V c t) RelRegion4.cover

end Cert.Layer

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.LibCast.lean ====
/-
  Two reshapes read at an index, as functions: an array of shape [a] reshaped to the row shape [1, a] reads,
  at (u, j), its entry j; reshaped to the column shape [a, 1] it reads, at (r, u), its entry r. Stated for any
  proof of the reshape's shape condition, so that either program's own fact can be passed.
-/
import Idealize.ShloMosaic.Lib.ValueLayout

namespace Cert.LibCast

open Idealize.ShloMosaic Idealize.ShloMosaic.ValueIdx

variable {α : Type}

/-- An [a] array reshaped to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a] array reshaped to the row shape [1, a], as a function of the row index. -/
theorem shapeCast_row {a : ℕ} (s : (⟨1, ![a]⟩ : Shape).Idx → α) (h : (⟨1, ![a]⟩ : Shape).ShapeCasts ⟨2, ![1, a]⟩) :
    shapeCast ⟨2, ![1, a]⟩ s h = fun i => s (ix1 (i 1)) := by
  funext i
  exact (congrArg (shapeCast ⟨2, ![1, a]⟩ s h) (eq_ix2 i)).trans (shapeCast_a_1a_apply s h (i 0) (i 1))

/-- An [a] array reshaped to the column shape [a, 1], as a function of the column index. -/
theorem shapeCast_col {a : ℕ} (d : (⟨1, ![a]⟩ : Shape).Idx → α) (h : (⟨1, ![a]⟩ : Shape).ShapeCasts ⟨2, ![a, 1]⟩) :
    shapeCast ⟨2, ![a, 1]⟩ d h = fun i => d (ix1 (i 0)) := by
  funext i
  exact (congrArg (shapeCast ⟨2, ![a, 1]⟩ d h) (eq_ix2 i)).trans (shapeCast_a_a1_apply d h (i 0) (i 1))

end Cert.LibCast
-- ==== Proof.NodePayload.lean ====
/-
  The value a node-update block computes is the specification on that block.  The printed sequence of array
  operations (a matrix product into the zero accumulator, the bias row repeated down the rows, two row sums kept as
  columns and divided by 128, the reciprocal square root of the variance plus a small constant, the gain row, the
  shift row, the clamp at zero) is read as whole-array functions of the index and then compared entry by entry with
  `nodeOut`.
-/
import proofs.«147423_j37778532335712_1_alg».proof.Proof.Spec
import proofs.«147423_j37778532335712_1_alg».proof.Proof.LibRowOps
import proofs.«147423_j37778532335712_1_alg».proof.Proof.LibCast
import proofs.«147423_j37778532335712_1_alg».proof.Proof.Gen.KernelIdeal.Skeleton

noncomputable section

open scoped BigOperators

namespace Cert.Layer.NodePayload

open Idealize.ShloMosaic Idealize.ShloMosaic.ValueIdx Cert.KernelIdeal

/-- A one-row array repeated down a rows holds, at (p, c), the row's entry c. -/
theorem row_all {α : Type} {a b : ℕ} (v : (⟨2, ![1, b]⟩ : Shape).Idx → α) (h : (⟨2, ![1, b]⟩ : Shape).Broadcasts ⟨2, ![a, b]⟩) :
    broadcastTo ⟨2, ![a, b]⟩ v h = fun i => v (ix2 (0 : Fin 1) (i 1)) := by
  funext i
  exact (congrArg (broadcastTo ⟨2, ![a, b]⟩ v h) (eq_ix2 i)).trans (broadcastTo_1b_ab_apply v h (i 0) (i 1))

/-- The row sums of an a × b array kept as a column: at (p, u) the sum of row p. -/
theorem rowsum_col {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32)
    (hc : (⟨1, ![a]⟩ : Shape).ShapeCasts ⟨2, ![a, 1]⟩) :
    shapeCast ⟨2, ![a, 1]⟩ (multiReduction .add [1] ⟨1, ![a]⟩ v 0x00000000#32 h hφ hacc) hc
      = fun i => ∑ k : Fin b, v (ix2 (i 0) k) := by
  rw [Cert.LibRowOps.rowsum v h hφ hacc, Cert.LibCast.shapeCast_col]; rfl

/-- The block's matrix product into the zero accumulator plus the repeated bias row is `affine` on the block: the
    casts to the same shape and the change of format are the identity on the extended reals. -/
theorem affine_eq (x0 : Vec Ideal S5000x128 .f32) (x1 : Vec Ideal S128x128 .f32) (x2 : Vec Ideal S1x128 .f32)
    (h0 : S5000x128.ShapeCasts S5000x128) (h1 : S128x128.ShapeCasts S128x128) (h2 : S1x128.ShapeCasts S1x128)
    (hb : FTy.bits .bf16 < FTy.bits .f32) (hr : S1x128.Broadcasts S5000x128) :
    addf (F := Ideal)
      (matmul dot_S5000x128_S128x128_S5000x128_1_0_0_1_n_n none
        (truncf .bf16 (shapeCast S5000x128 x0 h0) hb)
        (truncf .bf16 (shapeCast S128x128 x1 h1) hb)
        (constant S5000x128 .f32 0x00000000#32))
      (broadcastTo S5000x128 (shapeCast S1x128 x2 h2) hr)
      = Cert.Layer.affine (A := 5000) x0 x1 x2 := by
  rw [shapeCast_self, shapeCast_self, shapeCast_self, row_all]
  show addf (F := Ideal) (FloatOps.matmul dot_S5000x128_S128x128_S5000x128_1_0_0_1_n_n none (φ₁ := .bf16) (φ₂ := .bf16) x0 x1 (constant S5000x128 .f32 0x00000000#32)) _ = _
  rw [Cert.LibMatmul.matmul_zero_eq dot_S5000x128_S128x128_S5000x128_1_0_0_1_n_n rfl rfl rfl rfl rfl rfl]
  rfl

end Cert.Layer.NodePayload

namespace Cert.Layer

open Idealize.ShloMosaic Idealize.ShloMosaic.ValueIdx Cert.KernelIdeal Cert.Layer.NodePayload

/-- The first node update's block value is the node update of the specification on the block's 5000 rows. -/
theorem k1_pay1_eq (x0 : Vec Ideal S5000x128 .f32) (x1 : Vec Ideal S128x128 .f32) (x2 x3 x4 : Vec Ideal S1x128 .f32) :
    Gen.k1_pay1 (F := Ideal) x0 x1 x2 x3 x4 = Cert.Layer.nodeOut (A := 5000) x0 x1 x2 x3 x4 := by
  unfold Gen.k1_pay1
  dsimp only
  rw [affine_eq x0 x1 x2]
  rw [rowsum_col (Cert.Layer.affine (A := 5000) x0 x1 x2), Cert.LibRowOps.col_bcast]
  rw [rowsum_col, Cert.LibRowOps.col_bcast, shapeCast_self, shapeCast_self, row_all, row_all]
  funext i
  obtain ⟨p, q, rfl⟩ : ∃ p q, i = ix2 p q := ⟨i 0, i 1, eq_ix2 i⟩
  rfl

/-- The second node update's block value: the same sequence of operations, hence the same function. -/
theorem k3_pay1_eq (x0 : Vec Ideal S5000x128 .f32) (x1 : Vec Ideal S128x128 .f32) (x2 x3 x4 : Vec Ideal S1x128 .f32) :
    Gen.k3_pay1 (F := Ideal) x0 x1 x2 x3 x4 = Cert.Layer.nodeOut (A := 5000) x0 x1 x2 x3 x4 :=
  (show Gen.k3_pay1 (F := Ideal) x0 x1 x2 x3 x4 = Gen.k1_pay1 (F := Ideal) x0 x1 x2 x3 x4 from rfl).trans
    (k1_pay1_eq x0 x1 x2 x3 x4)

end Cert.Layer

end
-- ==== Proof.NodeRegion1.lean ====
/-
  From row blocks to the array, for a node-update region.  The region's grid has ten points; at point t the output
  window holds rows 5000 t … 5000 t + 4999 of the output array, the first input window the same rows of the array
  of aggregated messages, and the four other input windows the whole weight, bias, gain and shift arrays.  What
  point t writes back is the node update of the specification on its block of rows; since a row of the node update
  depends on that row of the input only, this is the block of rows 5000 t … of the node update on the whole array.
  Row r lies in the block of point r / 5000, so the ten blocks cover the array, which therefore ends holding the node
  update of the whole input.
-/
import proofs.«147423_j37778532335712_1_alg».proof.Proof.Spec
import proofs.«147423_j37778532335712_1_alg».proof.Proof.NodePayload
import proofs.«147423_j37778532335712_1_alg».proof.Proof.Gen.KernelIdeal.Frame
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Layer.NodeRegion1

open Cert.KernelIdeal Cert.KernelIdeal.Gen

variable (V : (c : Dev nD) → (b : Ref sig .tc) → Buf (Elt Ideal) ((c : Thread nD τ).loc b))

/-- The zero offsets of a whole-buffer rectangle, as a constant function. -/
theorem hz : (![0, 0] : Fin 2 → Nat) = fun _ => 0 := funext fun a => by fin_cases a <;> rfl

/-- The printed index maps over the ten grid points: the two row-block windows sit at block (t, 0), the four whole-array
    windows at block (0, 0). -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The specification on the whole array, at the region's entry contents. -/
abbrev G (c : Dev nD) : Buf (Elt Ideal) ((c : Thread nD τ).loc main_v33) :=
  Cert.Layer.nodeOut (A := 50000) (V c main_v28) (V c main_v29) (V c main_v30) (V c main_v31) (V c main_v32)

/-- A block's node update at a row is the whole array's node update at the row the block's row sits at. -/
theorem block_value (x0 : Vec Ideal S5000x128 .f32) (x1 : Vec Ideal S128x128 .f32) (x2 x3 x4 : Vec Ideal S1x128 .f32)
    (X0 : S50000x128.Idx → EReal) (X1 : S128x128.Idx → EReal) (X2 X3 X4 : S1x128.Idx → EReal) (n : ℕ) (hn : n < 10)
    (h0 : ∀ (p : Fin 5000) (k : Fin 128), x0 (ix2 p k) = X0 (ix2 (⟨5000 * n + p.val, by omega⟩ : Fin 50000) k))
    (h1 : x1 = X1) (h2 : x2 = X2) (h3 : x3 = X3) (h4 : x4 = X4)
    (j : S5000x128.Idx) (i : S50000x128.Idx) (hi0 : (i 0).val = 5000 * n + (j 0).val) (hi1 : (i 1).val = (j 1).val) :
    Cert.Layer.nodeOut (A := 5000) x0 x1 x2 x3 x4 j = Cert.Layer.nodeOut (A := 50000) X0 X1 X2 X3 X4 i := by
  subst h1 h2 h3 h4
  obtain ⟨p, q, rfl⟩ : ∃ (p : Fin 5000) (q : Fin 128), j = ix2 p q := ⟨j 0, j 1, eq_ix2 j⟩
  obtain ⟨p', q', rfl⟩ : ∃ (p' : Fin 50000) (q' : Fin 128), i = ix2 p' q' := ⟨i 0, i 1, eq_ix2 i⟩
  have hp : 5000 * n + p.val < 50000 := by have := p.isLt; omega
  have e1 : q' = q := Fin.ext hi1
  have e0 : p' = ⟨5000 * n + p.val, hp⟩ := Fin.ext hi0
  rw [e1, e0]
  exact Cert.Layer.nodeOut_rows x0 X0 x1 x2 x3 x4 p _ (h0 p) q

/-- The row-block window's block at point t holds rows 5000 t … 5000 t + 4999 of its array. -/
theorem blk_rows (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v28 : S50000x128.Idx → EReal) k := by
  obtain ⟨e0, e1, -⟩ := idx_facts t
  unfold iblk1
  rw [View.read_apply]
  show V c main_v28 _ = V c main_v28 _
  refine congrArg _ ?_
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The weight window's block is the weight array, at every point. -/
theorem blk_weight (c : Dev nD) (t : Fin cfg1.N) : (iblk1 V c 1 t : Vec Ideal S128x128 .f32) = (V c main_v29 : S128x128.Idx → EReal) := by
  obtain ⟨-, -, -, -, e0, e1, -⟩ := idx_facts t
  funext x
  unfold iblk1
  rw [View.read_apply]
  show V c main_v29 _ = V c main_v29 _
  refine congrArg _ ?_
  funext a
  apply Fin.ext
  match a with
  | ⟨0, _⟩ => show win1_1.index t 0 * 128 + 1 * (x 0).val = (x 0).val; rw [e0]; omega
  | ⟨1, _⟩ => show win1_1.index t 1 * 128 + 1 * (x 1).val = (x 1).val; rw [e1]; omega

/-- The bias window's block is the bias array, at every point. -/
theorem blk_bias (c : Dev nD) (t : Fin cfg1.N) : (iblk1 V c 2 t : Vec Ideal S1x128 .f32) = (V c main_v30 : S1x128.Idx → EReal) := by
  obtain ⟨-, -, -, -, -, -, e0, e1, -⟩ := idx_facts t
  funext x
  unfold iblk1
  rw [View.read_apply]
  show V c main_v30 _ = V c main_v30 _
  refine congrArg _ ?_
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-- The gain window's block is the gain array, at every point. -/
theorem blk_gain (c : Dev nD) (t : Fin cfg1.N) : (iblk1 V c 3 t : Vec Ideal S1x128 .f32) = (V c main_v31 : S1x128.Idx → EReal) := by
  obtain ⟨-, -, -, -, -, -, -, -, e0, e1, -⟩ := idx_facts t
  funext x
  unfold iblk1
  rw [View.read_apply]
  show V c main_v31 _ = V c main_v31 _
  refine congrArg _ ?_
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- The shift window's block is the shift array, at every point. -/
theorem blk_shift (c : Dev nD) (t : Fin cfg1.N) : (iblk1 V c 4 t : Vec Ideal S1x128 .f32) = (V c main_v32 : S1x128.Idx → EReal) := by
  obtain ⟨-, -, -, -, -, -, -, -, -, -, e0, e1⟩ := idx_facts t
  funext x
  unfold iblk1
  rw [View.read_apply]
  show V c main_v32 _ = V c main_v32 _
  refine congrArg _ ?_
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- What point t writes back is block t of the node update on the whole array. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [Cert.Layer.k1_pay1_eq]
  funext j
  have hN : cfg1.N = 10 := N_1
  have ht : t.val < 10 := hN ▸ t.isLt
  obtain ⟨-, -, e0, e1, -⟩ := idx_facts t
  rw [View.read_apply]
  refine block_value _ _ _ _ _ (V c main_v28) (V c main_v29) (V c main_v30) (V c main_v31) (V c main_v32) t.val ht
    (fun p k => blk_rows V c t (ix2 p k) _ rfl rfl) (blk_weight V c t) (blk_bias V c t) (blk_gain V c t) (blk_shift V c t)
    j _ ?_ ?_
  · show win1_5.index t 0 * 5000 + 1 * (j 0).val = 5000 * t.val + (j 0).val; rw [e0]; omega
  · show win1_5.index t 1 * 128 + 1 * (j 1).val = (j 1).val; rw [e1]; omega

/-- An index of the array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v33).slice (win1_5.rect t)).set ↔ _
  rw [View.set_slice_whole, Rect.mem_set_unit]
  exact Iff.rfl

/-- Row r of the array is in the block of point r / 5000: the ten row blocks cover the array. -/
theorem cover (i : S50000x128.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 128 := (i 1).isLt
  have ht : (i 0).val / 5000 < cfg1.N := by rw [hN]; omega
  obtain ⟨-, -, e0, e1, -⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ 0 * 5000 ≤ (i 0).val ∧ (i 0).val < win1_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ 1 * 128 ≤ (i 1).val ∧ (i 1).val < win1_5.index ⟨(i 0).val / 5000, ht⟩ 1 * 128 + 128
    rw [e1]; omega

end Cert.Layer.NodeRegion1

namespace Cert.Layer

open Cert.KernelIdeal Cert.KernelIdeal.Gen

/-- The first node-update region leaves, in its output array, the node update of the specification applied to the
    region's five input arrays as it finds them. -/
theorem region1_arr (V : (c : Dev nD) → (b : Ref sig .tc) → Buf (Elt Ideal) ((c : Thread nD τ).loc b)) (c : Dev nD) :
    (dat1 (F := Ideal) V c).arrAt 5 cfg1.N
      = Cert.Layer.nodeOut (A := 50000) (V c main_v28) (V c main_v29) (V c main_v30) (V c main_v31) (V c main_v32) :=
  (dat1 V c).arrAt_eq_of_cover 5 (NodeRegion1.G V c) (fun t _ => NodeRegion1.flushed_eq V c t) NodeRegion1.cover

end Cert.Layer

end
-- ==== Proof.NodeRegion3.lean ====
/-
  From row blocks to the array, for a node-update region.  The region's grid has ten points; at point t the output
  window holds rows 5000 t … 5000 t + 4999 of the output array, the first input window the same rows of the array
  of aggregated messages, and the four other input windows the whole weight, bias, gain and shift arrays.  What
  point t writes back is the node update of the specification on its block of rows; since a row of the node update
  depends on that row of the input only, this is the block of rows 5000 t … of the node update on the whole array.
  Row r lies in the block of point r / 5000, so the ten blocks cover the array, which therefore ends holding the node
  update of the whole input.
-/
import proofs.«147423_j37778532335712_1_alg».proof.Proof.Spec
import proofs.«147423_j37778532335712_1_alg».proof.Proof.NodePayload
import proofs.«147423_j37778532335712_1_alg».proof.Proof.Gen.KernelIdeal.Frame
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Layer.NodeRegion3

open Cert.KernelIdeal Cert.KernelIdeal.Gen

variable (V : (c : Dev nD) → (b : Ref sig .tc) → Buf (Elt Ideal) ((c : Thread nD τ).loc b))

/-- The zero offsets of a whole-buffer rectangle, as a constant function. -/
theorem hz : (![0, 0] : Fin 2 → Nat) = fun _ => 0 := funext fun a => by fin_cases a <;> rfl

/-- The printed index maps over the ten grid points: the two row-block windows sit at block (t, 0), the four whole-array
    windows at block (0, 0). -/
theorem idx_facts : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The specification on the whole array, at the region's entry contents. -/
abbrev G (c : Dev nD) : Buf (Elt Ideal) ((c : Thread nD τ).loc main_v60) :=
  Cert.Layer.nodeOut (A := 50000) (V c main_v55) (V c main_v56) (V c main_v57) (V c main_v58) (V c main_v59)

/-- A block's node update at a row is the whole array's node update at the row the block's row sits at. -/
theorem block_value (x0 : Vec Ideal S5000x128 .f32) (x1 : Vec Ideal S128x128 .f32) (x2 x3 x4 : Vec Ideal S1x128 .f32)
    (X0 : S50000x128.Idx → EReal) (X1 : S128x128.Idx → EReal) (X2 X3 X4 : S1x128.Idx → EReal) (n : ℕ) (hn : n < 10)
    (h0 : ∀ (p : Fin 5000) (k : Fin 128), x0 (ix2 p k) = X0 (ix2 (⟨5000 * n + p.val, by omega⟩ : Fin 50000) k))
    (h1 : x1 = X1) (h2 : x2 = X2) (h3 : x3 = X3) (h4 : x4 = X4)
    (j : S5000x128.Idx) (i : S50000x128.Idx) (hi0 : (i 0).val = 5000 * n + (j 0).val) (hi1 : (i 1).val = (j 1).val) :
    Cert.Layer.nodeOut (A := 5000) x0 x1 x2 x3 x4 j = Cert.Layer.nodeOut (A := 50000) X0 X1 X2 X3 X4 i := by
  subst h1 h2 h3 h4
  obtain ⟨p, q, rfl⟩ : ∃ (p : Fin 5000) (q : Fin 128), j = ix2 p q := ⟨j 0, j 1, eq_ix2 j⟩
  obtain ⟨p', q', rfl⟩ : ∃ (p' : Fin 50000) (q' : Fin 128), i = ix2 p' q' := ⟨i 0, i 1, eq_ix2 i⟩
  have hp : 5000 * n + p.val < 50000 := by have := p.isLt; omega
  have e1 : q' = q := Fin.ext hi1
  have e0 : p' = ⟨5000 * n + p.val, hp⟩ := Fin.ext hi0
  rw [e1, e0]
  exact Cert.Layer.nodeOut_rows x0 X0 x1 x2 x3 x4 p _ (h0 p) q

/-- The row-block window's block at point t holds rows 5000 t … 5000 t + 4999 of its array. -/
theorem blk_rows (c : Dev nD) (t : Fin cfg3.N) (x : S5000x128.Idx) (k : S50000x128.Idx)
    (hk0 : (k 0).val = 5000 * t.val + (x 0).val) (hk1 : (k 1).val = (x 1).val) :
    (iblk3 V c 0 t : Vec Ideal S5000x128 .f32) x = (V c main_v55 : S50000x128.Idx → EReal) k := by
  obtain ⟨e0, e1, -⟩ := idx_facts t
  unfold iblk3
  rw [View.read_apply]
  show V c main_v55 _ = V c main_v55 _
  refine congrArg _ ?_
  funext a
  apply Fin.ext
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

/-- The weight window's block is the weight array, at every point. -/
theorem blk_weight (c : Dev nD) (t : Fin cfg3.N) : (iblk3 V c 1 t : Vec Ideal S128x128 .f32) = (V c main_v56 : S128x128.Idx → EReal) := by
  obtain ⟨-, -, -, -, e0, e1, -⟩ := idx_facts t
  funext x
  unfold iblk3
  rw [View.read_apply]
  show V c main_v56 _ = V c main_v56 _
  refine congrArg _ ?_
  funext a
  apply Fin.ext
  match a with
  | ⟨0, _⟩ => show win3_1.index t 0 * 128 + 1 * (x 0).val = (x 0).val; rw [e0]; omega
  | ⟨1, _⟩ => show win3_1.index t 1 * 128 + 1 * (x 1).val = (x 1).val; rw [e1]; omega

/-- The bias window's block is the bias array, at every point. -/
theorem blk_bias (c : Dev nD) (t : Fin cfg3.N) : (iblk3 V c 2 t : Vec Ideal S1x128 .f32) = (V c main_v57 : S1x128.Idx → EReal) := by
  obtain ⟨-, -, -, -, -, -, e0, e1, -⟩ := idx_facts t
  funext x
  unfold iblk3
  rw [View.read_apply]
  show V c main_v57 _ = V c main_v57 _
  refine congrArg _ ?_
  funext a
  apply Fin.ext
  match a with
  | ⟨0, _⟩ => show win3_2.index t 0 * 1 + 1 * (x 0).val = (x 0).val; rw [e0]; omega
  | ⟨1, _⟩ => show win3_2.index t 1 * 128 + 1 * (x 1).val = (x 1).val; rw [e1]; omega

/-- The gain window's block is the gain array, at every point. -/
theorem blk_gain (c : Dev nD) (t : Fin cfg3.N) : (iblk3 V c 3 t : Vec Ideal S1x128 .f32) = (V c main_v58 : S1x128.Idx → EReal) := by
  obtain ⟨-, -, -, -, -, -, -, -, e0, e1, -⟩ := idx_facts t
  funext x
  unfold iblk3
  rw [View.read_apply]
  show V c main_v58 _ = V c main_v58 _
  refine congrArg _ ?_
  funext a
  apply Fin.ext
  match a with
  | ⟨0, _⟩ => show win3_3.index t 0 * 1 + 1 * (x 0).val = (x 0).val; rw [e0]; omega
  | ⟨1, _⟩ => show win3_3.index t 1 * 128 + 1 * (x 1).val = (x 1).val; rw [e1]; omega

/-- The shift window's block is the shift array, at every point. -/
theorem blk_shift (c : Dev nD) (t : Fin cfg3.N) : (iblk3 V c 4 t : Vec Ideal S1x128 .f32) = (V c main_v59 : S1x128.Idx → EReal) := by
  obtain ⟨-, -, -, -, -, -, -, -, -, -, e0, e1⟩ := idx_facts t
  funext x
  unfold iblk3
  rw [View.read_apply]
  show V c main_v59 _ = V c main_v59 _
  refine congrArg _ ?_
  funext a
  apply Fin.ext
  match a with
  | ⟨0, _⟩ => show win3_4.index t 0 * 1 + 1 * (x 0).val = (x 0).val; rw [e0]; omega
  | ⟨1, _⟩ => show win3_4.index t 1 * 128 + 1 * (x 1).val = (x 1).val; rw [e1]; omega

/-- What point t writes back is block t of the node update on the whole array. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  rw [Cert.Layer.k3_pay1_eq]
  funext j
  have hN : cfg3.N = 10 := N_3
  have ht : t.val < 10 := hN ▸ t.isLt
  obtain ⟨-, -, e0, e1, -⟩ := idx_facts t
  rw [View.read_apply]
  refine block_value _ _ _ _ _ (V c main_v55) (V c main_v56) (V c main_v57) (V c main_v58) (V c main_v59) t.val ht
    (fun p k => blk_rows V c t (ix2 p k) _ rfl rfl) (blk_weight V c t) (blk_bias V c t) (blk_gain V c t) (blk_shift V c t)
    j _ ?_ ?_
  · show win3_5.index t 0 * 5000 + 1 * (j 0).val = 5000 * t.val + (j 0).val; rw [e0]; omega
  · show win3_5.index t 1 * 128 + 1 * (j 1).val = (j 1).val; rw [e1]; omega

/-- An index of the array is in point t's block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v60).slice (win3_5.rect t)).set ↔ _
  rw [View.set_slice_whole, Rect.mem_set_unit]
  exact Iff.rfl

/-- Row r of the array is in the block of point r / 5000: the ten row blocks cover the array. -/
theorem cover (i : S50000x128.Idx) :
    ∃ t : Fin cfg3.N, (cfg3.win 5).flush t = true ∧ i ∈ ((cfg3.win 5).blk t).view.set := by
  have hN : cfg3.N = 10 := N_3
  have hi0 : (i 0).val < 50000 := (i 0).isLt
  have hi1 : (i 1).val < 128 := (i 1).isLt
  have ht : (i 0).val / 5000 < cfg3.N := by rw [hN]; omega
  obtain ⟨-, -, e0, e1, -⟩ := idx_facts ⟨(i 0).val / 5000, ht⟩
  refine ⟨⟨(i 0).val / 5000, ht⟩, flush3_5 _, ?_⟩
  rw [mem_blk]
  intro a
  match a with
  | ⟨0, _⟩ =>
    show win3_5.index ⟨(i 0).val / 5000, ht⟩ 0 * 5000 ≤ (i 0).val ∧ (i 0).val < win3_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win3_5.index ⟨(i 0).val / 5000, ht⟩ 1 * 128 ≤ (i 1).val ∧ (i 1).val < win3_5.index ⟨(i 0).val / 5000, ht⟩ 1 * 128 + 128
    rw [e1]; omega

end Cert.Layer.NodeRegion3

namespace Cert.Layer

open Cert.KernelIdeal Cert.KernelIdeal.Gen

/-- The second node-update region leaves, in its output array, the node update of the specification applied to the
    region's five input arrays as it finds them. -/
theorem region3_arr (V : (c : Dev nD) → (b : Ref sig .tc) → Buf (Elt Ideal) ((c : Thread nD τ).loc b)) (c : Dev nD) :
    (dat3 (F := Ideal) V c).arrAt 5 cfg3.N
      = Cert.Layer.nodeOut (A := 50000) (V c main_v55) (V c main_v56) (V c main_v57) (V c main_v58) (V c main_v59) :=
  (dat3 V c).arrAt_eq_of_cover 5 (NodeRegion3.G V c) (fun t _ => NodeRegion3.flushed_eq V c t) NodeRegion3.cover

end Cert.Layer

end
-- ==== Proof.RefNode1.lean ====
/-
  The reference's first node update, read at an index, is the specification's node update.
  The reference computes, on the whole array at once, the affine map, the row sums, the means, the centred squares,
  their row sums, the variances, the reciprocal square roots, and then scales, shifts and clamps.  Read at an index
  (r, j), every broadcast picks row r (or the single row of a [1,128] operand) and every row sum runs over the
  entries of row r, so the value is the specification's `nodeOut` at (r, j).
-/
import proofs.«147423_j37778532335712_1_alg».proof.Proof.Gen.ReferenceIdeal.Read
import proofs.«147423_j37778532335712_1_alg».proof.Proof.Spec

open scoped BigOperators

noncomputable section

namespace Cert.Layer

open Cert.ReferenceIdeal Cert.ReferenceIdeal.Read Idealize.ShloMosaic Idealize.ShloMosaic.ValueIdx

namespace RefNode1

section
variable (x0 : (⟨S50000, .i32⟩ : BufTy).Contents (Elt Ideal)) (x1 : (⟨S2x600000, .i32⟩ : BufTy).Contents (Elt Ideal))
  (x2 : (⟨S600000, .i32⟩ : BufTy).Contents (Elt Ideal)) (x3 : (⟨S50000x128, .f32⟩ : BufTy).Contents (Elt Ideal))
  (x4 : (⟨S400x128, .f32⟩ : BufTy).Contents (Elt Ideal)) (x7 : (⟨S128x128, .f32⟩ : BufTy).Contents (Elt Ideal))
  (x8 : (⟨S128, .f32⟩ : BufTy).Contents (Elt Ideal))

/-- The affine stage is the specification's `affine` of the aggregated array, the transposed weight and the bias row. -/
theorem affine_eq :
    val_main_v33 (F := Ideal) x0 x1 x2 x3 x4 x7 x8
      = affine (A := 50000) (val_main_v28 (F := Ideal) x0 x1 x2 x3 x4) (val_main_v29 (F := Ideal) x7) (val_main_v31 (F := Ideal) x8) := by
  funext i
  obtain ⟨r, q, rfl⟩ : ∃ r q, i = ix2 r q := ⟨i 0, i 1, eq_ix2 i⟩
  rw [val_main_v33_apply, val_main_v30_apply, val_main_v32_apply, Ideal.addf_def]
  have el : ∀ k : Fin 128, lidx_main_v30 (ix2 r q) k = ix2 r k := fun k => funext fun a => by
    match a with | ⟨0, _⟩ => rfl | ⟨1, _⟩ => rfl
  have er : ∀ k : Fin 128, ridx_main_v30 (ix2 r q) k = ix2 k q := fun k => funext fun a => by
    match a with | ⟨0, _⟩ => rfl | ⟨1, _⟩ => rfl
  have eb : idx_main_v32 (ix2 r q) = ix2 (0 : Fin 1) q := funext fun a => by
    match a with | ⟨0, _⟩ => rfl | ⟨1, _⟩ => rfl
  simp only [el, er, eb]
  rfl

/-- The mean stage at row r is the mean of row r of the affine stage. -/
theorem mean_at (r : Fin 50000) (u : Fin 1) :
    val_main_v37 (F := Ideal) x0 x1 x2 x3 x4 x7 x8 (ix2 r u)
      = rowMean (fun k => val_main_v33 (F := Ideal) x0 x1 x2 x3 x4 x7 x8 (ix2 r k)) := by
  rw [val_main_v37_apply, val_main_v35_apply, val_main_v34_apply, val_main_v36_apply, val_main_cst_5_apply, val_main_cst_6_apply,
    Ideal.hostDivf_def, Ideal.ofBits_def, Ideal.ofBits_def, Ideal.ofBits_zero_f32, zero_add]
  have e : ∀ k : Fin 128, idx_main_v34 (idx_main_v35 (ix2 r u)) k = ix2 r k := fun k => funext fun a => by
    match a with | ⟨0, _⟩ => rfl | ⟨1, _⟩ => rfl
  simp only [e]
  rfl

/-- The centred stage at (r, k) is the affine stage's entry minus its row's mean. -/
theorem centred_at (r : Fin 50000) (k : Fin 128) :
    val_main_v39 (F := Ideal) x0 x1 x2 x3 x4 x7 x8 (ix2 r k)
      = val_main_v33 (F := Ideal) x0 x1 x2 x3 x4 x7 x8 (ix2 r k)
        - rowMean (fun k' => val_main_v33 (F := Ideal) x0 x1 x2 x3 x4 x7 x8 (ix2 r k')) := by
  rw [val_main_v39_apply, val_main_v38_apply, Ideal.subf_def]
  have e : idx_main_v38 (ix2 r k) = ix2 r (0 : Fin 1) := funext fun a => by
    match a with | ⟨0, _⟩ => rfl | ⟨1, _⟩ => rfl
  rw [e, mean_at]

/-- The variance stage at row r is the variance of row r of the affine stage. -/
theorem var_at (r : Fin 50000) (u : Fin 1) :
    val_main_v44 (F := Ideal) x0 x1 x2 x3 x4 x7 x8 (ix2 r u)
      = rowVar (fun k => val_main_v33 (F := Ideal) x0 x1 x2 x3 x4 x7 x8 (ix2 r k)) := by
  rw [val_main_v44_apply, val_main_v42_apply, val_main_v41_apply, val_main_v43_apply, val_main_cst_7_apply, val_main_cst_8_apply,
    Ideal.hostDivf_def, Ideal.ofBits_def, Ideal.ofBits_def, Ideal.ofBits_zero_f32, zero_add]
  have e : ∀ k : Fin 128, idx_main_v41 (idx_main_v42 (ix2 r u)) k = ix2 r k := fun k => funext fun a => by
    match a with | ⟨0, _⟩ => rfl | ⟨1, _⟩ => rfl
  simp only [e, val_main_v40_apply, Ideal.mulf_def, centred_at]
  rfl

end

end RefNode1

section
variable (x0 : (⟨S50000, .i32⟩ : BufTy).Contents (Elt Ideal)) (x1 : (⟨S2x600000, .i32⟩ : BufTy).Contents (Elt Ideal))
  (x2 : (⟨S600000, .i32⟩ : BufTy).Contents (Elt Ideal)) (x3 : (⟨S50000x128, .f32⟩ : BufTy).Contents (Elt Ideal))
  (x4 : (⟨S400x128, .f32⟩ : BufTy).Contents (Elt Ideal)) (x7 : (⟨S128x128, .f32⟩ : BufTy).Contents (Elt Ideal))
  (x8 : (⟨S128, .f32⟩ : BufTy).Contents (Elt Ideal))
variable (x9 x10 : (⟨S128, .f32⟩ : BufTy).Contents (Elt Ideal))

/-- The reference's first node update is `nodeOut` of the aggregated messages. -/
theorem ref_node1 :
    val_main_v58 (F := Ideal) x0 x1 x2 x3 x4 x7 x8 x9 x10
      = nodeOut (A := 50000) (val_main_v28 (F := Ideal) x0 x1 x2 x3 x4) (val_main_v29 (F := Ideal) x7) (val_main_v31 (F := Ideal) x8)
          (val_main_v52 (F := Ideal) x9) (val_main_v55 (F := Ideal) x10) := by
  funext i
  obtain ⟨r, q, rfl⟩ : ∃ r q, i = ix2 r q := ⟨i 0, i 1, eq_ix2 i⟩
  rw [val_main_v58_apply, val_main_v57_apply, val_main_v54_apply, val_main_v51_apply, val_main_v46_apply, val_main_v45_apply, val_main_v50_apply, val_main_v49_apply, val_main_v48_apply,
    val_main_v47_apply, val_main_v53_apply, val_main_v56_apply, val_main_call0_v0_apply, val_main_call0_cst_apply, val_main_cst_9_apply]
  have e45 : idx_main_v45 (ix2 r q) = ix2 r (0 : Fin 1) := funext fun a => by
    match a with | ⟨0, _⟩ => rfl | ⟨1, _⟩ => rfl
  have e50 : idx_main_v50 (ix2 r q) = ix2 r (0 : Fin 1) := funext fun a => by
    match a with | ⟨0, _⟩ => rfl | ⟨1, _⟩ => rfl
  have e53 : idx_main_v53 (ix2 r q) = ix2 (0 : Fin 1) q := funext fun a => by
    match a with | ⟨0, _⟩ => rfl | ⟨1, _⟩ => rfl
  have e56 : idx_main_v56 (ix2 r q) = ix2 (0 : Fin 1) q := funext fun a => by
    match a with | ⟨0, _⟩ => rfl | ⟨1, _⟩ => rfl
  rw [e45, e50, e53, e56, RefNode1.mean_at, RefNode1.var_at, RefNode1.affine_eq]
  simp only [Ideal.maximumf_def, Ideal.addf_def, Ideal.mulf_def, Ideal.subf_def, Ideal.hostUnary_rsqrt_def, Ideal.ofBits_def]
  rfl

end

end Cert.Layer

end
-- ==== Proof.RefNode2.lean ====
/-
  The reference's second node update, read at an index, is the specification's node update.
  The reference computes, on the whole array at once, the affine map, the row sums, the means, the centred squares,
  their row sums, the variances, the reciprocal square roots, and then scales, shifts and clamps.  Read at an index
  (r, j), every broadcast picks row r (or the single row of a [1,128] operand) and every row sum runs over the
  entries of row r, so the value is the specification's `nodeOut` at (r, j).
-/
import proofs.«147423_j37778532335712_1_alg».proof.Proof.Gen.ReferenceIdeal.Read
import proofs.«147423_j37778532335712_1_alg».proof.Proof.Spec

open scoped BigOperators

noncomputable section

namespace Cert.Layer

open Cert.ReferenceIdeal Cert.ReferenceIdeal.Read Idealize.ShloMosaic Idealize.ShloMosaic.ValueIdx

namespace RefNode2

section
variable (x0 : (⟨S50000, .i32⟩ : BufTy).Contents (Elt Ideal)) (x1 : (⟨S2x600000, .i32⟩ : BufTy).Contents (Elt Ideal))
  (x2 : (⟨S600000, .i32⟩ : BufTy).Contents (Elt Ideal)) (x3 : (⟨S50000x128, .f32⟩ : BufTy).Contents (Elt Ideal))
  (x4 : (⟨S400x128, .f32⟩ : BufTy).Contents (Elt Ideal)) (x7 : (⟨S128x128, .f32⟩ : BufTy).Contents (Elt Ideal))
  (x8 x9 x10 : (⟨S128, .f32⟩ : BufTy).Contents (Elt Ideal)) (x11 : (⟨S400x128, .f32⟩ : BufTy).Contents (Elt Ideal))
  (x14 : (⟨S128x128, .f32⟩ : BufTy).Contents (Elt Ideal)) (x15 : (⟨S128, .f32⟩ : BufTy).Contents (Elt Ideal))

/-- The affine stage is the specification's `affine` of the aggregated array, the transposed weight and the bias row. -/
theorem affine_eq :
    val_main_v90 (F := Ideal) x0 x1 x2 x3 x4 x7 x8 x9 x10 x11 x14 x15
      = affine (A := 50000) (val_main_v85 (F := Ideal) x0 x1 x2 x3 x4 x7 x8 x9 x10 x11) (val_main_v86 (F := Ideal) x14) (val_main_v88 (F := Ideal) x15) := by
  funext i
  obtain ⟨r, q, rfl⟩ : ∃ r q, i = ix2 r q := ⟨i 0, i 1, eq_ix2 i⟩
  rw [val_main_v90_apply, val_main_v87_apply, val_main_v89_apply, Ideal.addf_def]
  have el : ∀ k : Fin 128, lidx_main_v87 (ix2 r q) k = ix2 r k := fun k => funext fun a => by
    match a with | ⟨0, _⟩ => rfl | ⟨1, _⟩ => rfl
  have er : ∀ k : Fin 128, ridx_main_v87 (ix2 r q) k = ix2 k q := fun k => funext fun a => by
    match a with | ⟨0, _⟩ => rfl | ⟨1, _⟩ => rfl
  have eb : idx_main_v89 (ix2 r q) = ix2 (0 : Fin 1) q := funext fun a => by
    match a with | ⟨0, _⟩ => rfl | ⟨1, _⟩ => rfl
  simp only [el, er, eb]
  rfl

/-- The mean stage at row r is the mean of row r of the affine stage. -/
theorem mean_at (r : Fin 50000) (u : Fin 1) :
    val_main_v94 (F := Ideal) x0 x1 x2 x3 x4 x7 x8 x9 x10 x11 x14 x15 (ix2 r u)
      = rowMean (fun k => val_main_v90 (F := Ideal) x0 x1 x2 x3 x4 x7 x8 x9 x10 x11 x14 x15 (ix2 r k)) := by
  rw [val_main_v94_apply, val_main_v92_apply, val_main_v91_apply, val_main_v93_apply, val_main_cst_15_apply, val_main_cst_16_apply,
    Ideal.hostDivf_def, Ideal.ofBits_def, Ideal.ofBits_def, Ideal.ofBits_zero_f32, zero_add]
  have e : ∀ k : Fin 128, idx_main_v91 (idx_main_v92 (ix2 r u)) k = ix2 r k := fun k => funext fun a => by
    match a with | ⟨0, _⟩ => rfl | ⟨1, _⟩ => rfl
  simp only [e]
  rfl

/-- The centred stage at (r, k) is the affine stage's entry minus its row's mean. -/
theorem centred_at (r : Fin 50000) (k : Fin 128) :
    val_main_v96 (F := Ideal) x0 x1 x2 x3 x4 x7 x8 x9 x10 x11 x14 x15 (ix2 r k)
      = val_main_v90 (F := Ideal) x0 x1 x2 x3 x4 x7 x8 x9 x10 x11 x14 x15 (ix2 r k)
        - rowMean (fun k' => val_main_v90 (F := Ideal) x0 x1 x2 x3 x4 x7 x8 x9 x10 x11 x14 x15 (ix2 r k')) := by
  rw [val_main_v96_apply, val_main_v95_apply, Ideal.subf_def]
  have e : idx_main_v95 (ix2 r k) = ix2 r (0 : Fin 1) := funext fun a => by
    match a with | ⟨0, _⟩ => rfl | ⟨1, _⟩ => rfl
  rw [e, mean_at]

/-- The variance stage at row r is the variance of row r of the affine stage. -/
theorem var_at (r : Fin 50000) (u : Fin 1) :
    val_main_v101 (F := Ideal) x0 x1 x2 x3 x4 x7 x8 x9 x10 x11 x14 x15 (ix2 r u)
      = rowVar (fun k => val_main_v90 (F := Ideal) x0 x1 x2 x3 x4 x7 x8 x9 x10 x11 x14 x15 (ix2 r k)) := by
  rw [val_main_v101_apply, val_main_v99_apply, val_main_v98_apply, val_main_v100_apply, val_main_cst_17_apply, val_main_cst_18_apply,
    Ideal.hostDivf_def, Ideal.ofBits_def, Ideal.ofBits_def, Ideal.ofBits_zero_f32, zero_add]
  have e : ∀ k : Fin 128, idx_main_v98 (idx_main_v99 (ix2 r u)) k = ix2 r k := fun k => funext fun a => by
    match a with | ⟨0, _⟩ => rfl | ⟨1, _⟩ => rfl
  simp only [e, val_main_v97_apply, Ideal.mulf_def, centred_at]
  rfl

end

end RefNode2

section
variable (x0 : (⟨S50000, .i32⟩ : BufTy).Contents (Elt Ideal)) (x1 : (⟨S2x600000, .i32⟩ : BufTy).Contents (Elt Ideal))
  (x2 : (⟨S600000, .i32⟩ : BufTy).Contents (Elt Ideal)) (x3 : (⟨S50000x128, .f32⟩ : BufTy).Contents (Elt Ideal))
  (x4 : (⟨S400x128, .f32⟩ : BufTy).Contents (Elt Ideal)) (x7 : (⟨S128x128, .f32⟩ : BufTy).Contents (Elt Ideal))
  (x8 x9 x10 : (⟨S128, .f32⟩ : BufTy).Contents (Elt Ideal)) (x11 : (⟨S400x128, .f32⟩ : BufTy).Contents (Elt Ideal))
  (x14 : (⟨S128x128, .f32⟩ : BufTy).Contents (Elt Ideal)) (x15 : (⟨S128, .f32⟩ : BufTy).Contents (Elt Ideal))
variable (x16 x17 : (⟨S128, .f32⟩ : BufTy).Contents (Elt Ideal))

/-- The reference's second node update is `nodeOut` of the second layer's aggregated messages. -/
theorem ref_node2 :
    val_main_v115 (F := Ideal) x0 x1 x2 x3 x4 x7 x8 x9 x10 x11 x14 x15 x16 x17
      = nodeOut (A := 50000) (val_main_v85 (F := Ideal) x0 x1 x2 x3 x4 x7 x8 x9 x10 x11) (val_main_v86 (F := Ideal) x14) (val_main_v88 (F := Ideal) x15)
          (val_main_v109 (F := Ideal) x16) (val_main_v112 (F := Ideal) x17) := by
  funext i
  obtain ⟨r, q, rfl⟩ : ∃ r q, i = ix2 r q := ⟨i 0, i 1, eq_ix2 i⟩
  rw [val_main_v115_apply, val_main_v114_apply, val_main_v111_apply, val_main_v108_apply, val_main_v103_apply, val_main_v102_apply, val_main_v107_apply, val_main_v106_apply, val_main_v105_apply,
    val_main_v104_apply, val_main_v110_apply, val_main_v113_apply, val_main_call1_v0_apply, val_main_call1_cst_apply, val_main_cst_19_apply]
  have e45 : idx_main_v102 (ix2 r q) = ix2 r (0 : Fin 1) := funext fun a => by
    match a with | ⟨0, _⟩ => rfl | ⟨1, _⟩ => rfl
  have e50 : idx_main_v107 (ix2 r q) = ix2 r (0 : Fin 1) := funext fun a => by
    match a with | ⟨0, _⟩ => rfl | ⟨1, _⟩ => rfl
  have e53 : idx_main_v110 (ix2 r q) = ix2 (0 : Fin 1) q := funext fun a => by
    match a with | ⟨0, _⟩ => rfl | ⟨1, _⟩ => rfl
  have e56 : idx_main_v113 (ix2 r q) = ix2 (0 : Fin 1) q := funext fun a => by
    match a with | ⟨0, _⟩ => rfl | ⟨1, _⟩ => rfl
  rw [e45, e50, e53, e56, RefNode2.mean_at, RefNode2.var_at, RefNode2.affine_eq]
  simp only [Ideal.maximumf_def, Ideal.addf_def, Ideal.mulf_def, Ideal.subf_def, Ideal.hostUnary_rsqrt_def, Ideal.ofBits_def]
  rfl

end

end Cert.Layer

end
-- ==== Proof.RefRel.lean ====
/-
  The reference's relation projection, read at an index, is the affine map of the specification:
  entry (r, j) is the sum over k of x (r, k) · wT (k, j), plus the bias row's entry j.
-/
import proofs.«147423_j37778532335712_1_alg».proof.Proof.Gen.ReferenceIdeal.Read
import proofs.«147423_j37778532335712_1_alg».proof.Proof.Spec

open scoped BigOperators

noncomputable section

namespace Cert.Layer

open Cert.ReferenceIdeal Cert.ReferenceIdeal.Read Idealize.ShloMosaic Idealize.ShloMosaic.ValueIdx

/-- The reference's relation projection is `x · wT + b`. -/
theorem ref_rel2 (x11 : (⟨S400x128, .f32⟩ : BufTy).Contents (Elt Ideal)) (x12 : (⟨S128x128, .f32⟩ : BufTy).Contents (Elt Ideal))
    (x13 : (⟨S128, .f32⟩ : BufTy).Contents (Elt Ideal)) :
    val_main_v120 (F := Ideal) x11 x12 x13
      = affine (A := 400) x11 (val_main_v116 (F := Ideal) x12) (val_main_v118 (F := Ideal) x13) := by
  funext i
  obtain ⟨r, q, rfl⟩ : ∃ r q, i = ix2 r q := ⟨i 0, i 1, eq_ix2 i⟩
  rw [val_main_v120_apply, val_main_v117_apply, val_main_v119_apply, Ideal.addf_def]
  -- the three index functions of the product and of the bias row, by coordinates
  have el : ∀ k : Fin 128, lidx_main_v117 (ix2 r q) k = ix2 r k := fun k => funext fun a => by
    match a with | ⟨0, _⟩ => rfl | ⟨1, _⟩ => rfl
  have er : ∀ k : Fin 128, ridx_main_v117 (ix2 r q) k = ix2 k q := fun k => funext fun a => by
    match a with | ⟨0, _⟩ => rfl | ⟨1, _⟩ => rfl
  have eb : idx_main_v119 (ix2 r q) = ix2 (0 : Fin 1) q := funext fun a => by
    match a with | ⟨0, _⟩ => rfl | ⟨1, _⟩ => rfl
  simp only [el, er, eb]
  rfl

end Cert.Layer

end
-- ==== Proof.KernelChain.lean ====
/-
  The idealized kernel's two result arrays as functions of its argument arrays, by walking the boundaries of @main.

  At each boundary the buffer contents are known by name (the imported frame module's `W0` … `W10`).  A host stretch
  computes what the reference's stretch computes (KernelHost.lean).  A message region multiplies two edge arrays entry
  by entry; a node-update region, over blocks of 5000 rows, leaves the whole-array node update of its operands, since
  every row of that update depends on the same row of the aggregated messages only; the projection region leaves the
  affine map of the relation table.  The reference's node update and projection are the same functions (RefNode1,
  RefNode2, RefRel).  So the first result is the reference's stage `val_main_v115` and the second its stage
  `val_main_v120`, both of the kernel's own argument arrays.  No step uses that the inputs are finite: nothing is
  regrouped or cancelled, both sides perform the same operations in the same order.
-/
import proofs.«147423_j37778532335712_1_alg».proof.Proof.Gen.KernelIdeal.Frame
import proofs.«147423_j37778532335712_1_alg».proof.Proof.Gen.ReferenceIdeal.Read
import proofs.«147423_j37778532335712_1_alg».proof.Proof.Spec
import proofs.«147423_j37778532335712_1_alg».proof.Proof.KernelHost
import proofs.«147423_j37778532335712_1_alg».proof.Proof.MsgRegion0
import proofs.«147423_j37778532335712_1_alg».proof.Proof.MsgRegion2
import proofs.«147423_j37778532335712_1_alg».proof.Proof.RelRegion4
import proofs.«147423_j37778532335712_1_alg».proof.Proof.NodeRegion1
import proofs.«147423_j37778532335712_1_alg».proof.Proof.NodeRegion3
import proofs.«147423_j37778532335712_1_alg».proof.Proof.RefNode1
import proofs.«147423_j37778532335712_1_alg».proof.Proof.RefNode2
import proofs.«147423_j37778532335712_1_alg».proof.Proof.RefRel

set_option maxRecDepth 16384

noncomputable section

namespace Cert.Layer.KChain

open Idealize.ShloMosaic Idealize.ShloMosaic.TcCoe Idealize.SL.Sem Idealize.ShloMosaic.StableHlo
open Cert.KernelIdeal Cert.KernelIdeal.Gen
open Cert.ReferenceIdeal.Read Cert.Layer.KHost

variable (m : (ℓ : Loc nD τ sig) → Buf (Elt Ideal) ℓ) (ρ : Dev nD → PrngReg) (c : Dev nD)

/-! ## The arguments at the boundaries the stretches read them at -/

theorem W2_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W2_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W2_arg9 : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W2_arg10 : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W4_arg1 : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_arg2 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_arg11 : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W6_arg14 : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W6_arg15 : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W6_arg16 : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W6_arg17 : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem W8_arg11 : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W8_arg12 : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W8_arg13 : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-! ## Layer 1 -/

theorem v17_at1 : V1 m ρ c main_v17 = val_main_v24 (F := Ideal) (m ((c : Thread nD τ).loc main_arg0)) (m ((c : Thread nD τ).loc main_arg1)) (m ((c : Thread nD τ).loc main_arg3)) :=
  s0_v17 (W0 m ρ c)

theorem v24_at1 : V1 m ρ c main_v24 = val_main_v17 (F := Ideal) (m ((c : Thread nD τ).loc main_arg2)) (m ((c : Thread nD τ).loc main_arg4)) :=
  s0_v24 (W0 m ρ c)

theorem v10_at2 : W2 m ρ c (Proc.devRef .tc main_v10) = val_main_v10 (F := Ideal) (m ((c : Thread nD τ).loc main_arg1)) :=
  (W2_of_ne m ρ c main_v10 (by decide)).trans (s0_v10 (W0 m ρ c))

theorem v25_at2 : W2 m ρ c (Proc.devRef .tc main_v25)
    = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 2).trans ?_
  rw [Cert.Layer.region0_arr, v17_at1, v24_at1]
  rfl

theorem v28_at3 : V3 m ρ c main_v28 = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  s1_v28 (W2 m ρ c) _ _ _ _ _ (v10_at2 m ρ c) (v25_at2 m ρ c)

theorem v29_at3 : V3 m ρ c main_v29 = val_main_v29 (F := Ideal) (m ((c : Thread nD τ).loc main_arg7)) :=
  (s1_v29 (W2 m ρ c)).trans (congrArg (val_main_v29 (F := Ideal)) (W2_arg7 m ρ c))

theorem v30_at3 : V3 m ρ c main_v30 = val_main_v31 (F := Ideal) (m ((c : Thread nD τ).loc main_arg8)) :=
  (s1_v30 (W2 m ρ c)).trans (congrArg (val_main_v31 (F := Ideal)) (W2_arg8 m ρ c))

theorem v31_at3 : V3 m ρ c main_v31 = val_main_v52 (F := Ideal) (m ((c : Thread nD τ).loc main_arg9)) :=
  (s1_v31 (W2 m ρ c)).trans (congrArg (val_main_v52 (F := Ideal)) (W2_arg9 m ρ c))

theorem v32_at3 : V3 m ρ c main_v32 = val_main_v55 (F := Ideal) (m ((c : Thread nD τ).loc main_arg10)) :=
  (s1_v32 (W2 m ρ c)).trans (congrArg (val_main_v55 (F := Ideal)) (W2_arg10 m ρ c))

/-- Layer 1's output: the node update of the aggregated messages, which is the reference's. -/
theorem v33_at4 : W4 m ρ c (Proc.devRef .tc main_v33) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) := by
  refine (W4_arr m ρ c 5).trans ?_
  rw [Cert.Layer.region1_arr, v28_at3, v29_at3, v30_at3, v31_at3, v32_at3]
  exact (Cert.Layer.ref_node1 _ _ _ _ _ _ _ _ _).symm

/-! ## Layer 2 -/

theorem v44_at5 : V5 m ρ c main_v44 = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) :=
  s2_v44 (W4 m ρ c) _ _ _ _ _ _ _ _ _ (W4_arg1 m ρ c) (v33_at4 m ρ c)

theorem v51_at5 : V5 m ρ c main_v51 = val_main_v74 (F := Ideal) (m ((c : Thread nD τ).loc main_arg2)) (m ((c : Thread nD τ).loc main_arg11)) := by
  refine (s2_v51 (W4 m ρ c)).trans ?_
  rw [W4_arg2 m ρ c, W4_arg11 m ρ c]

theorem v37_at6 : W6 m ρ c (Proc.devRef .tc main_v37) = val_main_v67 (F := Ideal) (m ((c : Thread nD τ).loc main_arg1)) := by
  refine (W6_of_ne m ρ c main_v37 (by decide)).trans ((s2_v37 (W4 m ρ c)).trans ?_)
  rw [W4_arg1 m ρ c]

theorem v52_at6 : W6 m ρ c (Proc.devRef .tc main_v52) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 2).trans ?_
  rw [Cert.Layer.region2_arr, v44_at5, v51_at5]
  rfl

theorem v55_at7 : V7 m ρ c main_v55 = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) :=
  s3_v55 (W6 m ρ c) _ _ _ _ _ _ _ _ _ _ (v37_at6 m ρ c) (v52_at6 m ρ c)

theorem v56_at7 : V7 m ρ c main_v56 = val_main_v86 (F := Ideal) (m ((c : Thread nD τ).loc main_arg14)) :=
  (s3_v56 (W6 m ρ c)).trans (congrArg (val_main_v86 (F := Ideal)) (W6_arg14 m ρ c))

theorem v57_at7 : V7 m ρ c main_v57 = val_main_v88 (F := Ideal) (m ((c : Thread nD τ).loc main_arg15)) :=
  (s3_v57 (W6 m ρ c)).trans (congrArg (val_main_v88 (F := Ideal)) (W6_arg15 m ρ c))

theorem v58_at7 : V7 m ρ c main_v58 = val_main_v109 (F := Ideal) (m ((c : Thread nD τ).loc main_arg16)) :=
  (s3_v58 (W6 m ρ c)).trans (congrArg (val_main_v109 (F := Ideal)) (W6_arg16 m ρ c))

theorem v59_at7 : V7 m ρ c main_v59 = val_main_v112 (F := Ideal) (m ((c : Thread nD τ).loc main_arg17)) :=
  (s3_v59 (W6 m ρ c)).trans (congrArg (val_main_v112 (F := Ideal)) (W6_arg17 m ρ c))

/-- Layer 2's output is the reference's first result. -/
theorem v60_at8 : W8 m ρ c (Proc.devRef .tc main_v60) = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) (m ((c : Thread nD τ).loc main_arg16)) (m ((c : Thread nD τ).loc main_arg17)) := by
  refine (W8_arr m ρ c 5).trans ?_
  rw [Cert.Layer.region3_arr, v55_at7, v56_at7, v57_at7, v58_at7, v59_at7]
  exact (Cert.Layer.ref_node2 _ _ _ _ _ _ _ _ _ _ _ _ _ _).symm

/-! ## The relation projection, and the two results at the last boundary -/

theorem arg11_at9 : V9 m ρ c main_arg11 = (m ((c : Thread nD τ).loc main_arg11)) :=
  (StableHlo.after_of_forall_not_mem (b := Proc.devRef .tc main_arg11) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W8_arg11 m ρ c)

theorem v61_at9 : V9 m ρ c main_v61 = val_main_v116 (F := Ideal) (m ((c : Thread nD τ).loc main_arg12)) :=
  (s4_v61 (W8 m ρ c)).trans (congrArg (val_main_v116 (F := Ideal)) (W8_arg12 m ρ c))

theorem v62_at9 : V9 m ρ c main_v62 = val_main_v118 (F := Ideal) (m ((c : Thread nD τ).loc main_arg13)) :=
  (s4_v62 (W8 m ρ c)).trans (congrArg (val_main_v118 (F := Ideal)) (W8_arg13 m ρ c))

/-- The second result: the relation projection, which is the reference's. -/
theorem v63_at10 : W10 m ρ c (Proc.devRef .tc main_v63) = val_main_v120 (F := Ideal) (m ((c : Thread nD τ).loc main_arg11)) (m ((c : Thread nD τ).loc main_arg12)) (m ((c : Thread nD τ).loc main_arg13)) := by
  refine (W10_arr m ρ c 3).trans ?_
  rw [Cert.Layer.region4_arr, arg11_at9, v61_at9, v62_at9]
  exact (Cert.Layer.ref_rel2 _ _ _).symm

/-- The first result is not touched after region 3. -/
theorem v60_at10 : W10 m ρ c (Proc.devRef .tc main_v60) = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) (m ((c : Thread nD τ).loc main_arg16)) (m ((c : Thread nD τ).loc main_arg17)) :=
  calc W10 m ρ c (Proc.devRef .tc main_v60)
    _ = W9 m ρ c (Proc.devRef .tc main_v60) := W10_of_ne m ρ c main_v60 (by decide)
    _ = W8 m ρ c (Proc.devRef .tc main_v60) := StableHlo.after_of_forall_not_mem (b := Proc.devRef .tc main_v60) _ _ (List.forall_iff_forall_mem.mp (by
          simp only [hostOps0, hostOps1, hostOps2, hostOps3, hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := v60_at8 m ρ c

end Cert.Layer.KChain

end
-- ==== Proof.lean ====
/-
  Two layers of relational graph message passing, a tiled kernel against a plain reference, equal at the ideal values.

  Each layer gathers a row per edge from the node table (at the edge's source) and from the relation table (at the
  edge's type), multiplies the two rows entry by entry, adds every edge's product into its destination node's row, and
  updates every node row by an affine map followed by a layer norm over its 128 entries, a gain, a shift and a clamp
  at zero; the second layer also projects the relation table by an affine map.  The kernel runs the products, the node
  updates and the projection as grid regions over row blocks, with the gathers and the scatter-add as host operations
  between them; the reference runs everything as host operations.  Both perform the same exact operations in the same
  order, so the results agree entry by entry on the extended reals, for all inputs: the node update of a block of rows is
  that block of the whole-array node update, because a row of the result depends on that row of its input only.

  The three frames are the imported frame modules' (the reference's is its run with the results dropped); the ideal
  pass rewrote nothing; the value claim names both results by the reference's own last stages applied to the kernel's
  argument arrays (KernelRun.lean: every buffer at the last boundary; KernelChain.lean: the two result buffers there).
-/
import proofs.«147423_j37778532335712_1_alg».proof.Defs
import proofs.«147423_j37778532335712_1_alg».proof.Proof.Gen.Kernel
import proofs.«147423_j37778532335712_1_alg».proof.Proof.Gen.Kernel.Frame
import proofs.«147423_j37778532335712_1_alg».proof.Proof.Gen.KernelIdeal
import proofs.«147423_j37778532335712_1_alg».proof.Proof.Gen.KernelIdeal.Frame
import proofs.«147423_j37778532335712_1_alg».proof.Proof.Gen.ReferenceIdeal
import proofs.«147423_j37778532335712_1_alg».proof.Proof.Gen.ReferenceIdeal.Run
import proofs.«147423_j37778532335712_1_alg».proof.Proof.Gen.ReferenceIdeal.Read
import proofs.«147423_j37778532335712_1_alg».proof.Proof.Gen.Pre_finite_inputs
import proofs.«147423_j37778532335712_1_alg».proof.Proof.KernelRun
import proofs.«147423_j37778532335712_1_alg».proof.Proof.KernelChain

set_option maxRecDepth 16384

noncomputable section

namespace Cert.Proof

open Idealize.ShloMosaic Idealize.ShloMosaic.TcCoe Idealize.SL.Sem

/-- The word-level kernel runs and keeps its arguments: the imported frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the same two arrays: the second layer's node update and the projected relation table, each
    the reference's own stage function of the (agreeing) argument arrays.  On the kernel's side every host stretch is the
    reference's stretch, a message region is the elementwise product, a node-update region over row blocks is the
    whole-array node update because a row of the result depends on that row of the aggregated messages only, and the
    projection region is the affine map. -/
theorem algebraic : Cert.algebraic_KernelIdeal_ReferenceIdeal := by
  intro m ρ m' ρ' _ hagree
  refine ⟨fun c => Cert.ReferenceIdeal.Read.val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.ReferenceIdeal.Read.val_main_v120 (F := Ideal) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c =>
      ⟨(h c Cert.KernelIdeal.main_v60 (by decide)).trans (Cert.Layer.KChain.v60_at10 m ρ c),
       (h c Cert.KernelIdeal.main_v63 (by decide)).trans (Cert.Layer.KChain.v63_at10 m ρ c),
       (h c Cert.KernelIdeal.main_arg0 (by decide)).trans (Cert.KernelIdeal.Gen.W10_main_arg0 m ρ c),
       (h c Cert.KernelIdeal.main_arg1 (by decide)).trans (Cert.KernelIdeal.Gen.W10_main_arg1 m ρ c),
       (h c Cert.KernelIdeal.main_arg2 (by decide)).trans (Cert.KernelIdeal.Gen.W10_main_arg2 m ρ c),
       (h c Cert.KernelIdeal.main_arg3 (by decide)).trans (Cert.KernelIdeal.Gen.W10_main_arg3 m ρ c),
       (h c Cert.KernelIdeal.main_arg4 (by decide)).trans (Cert.KernelIdeal.Gen.W10_main_arg4 m ρ c),
       (h c Cert.KernelIdeal.main_arg5 (by decide)).trans (Cert.KernelIdeal.Gen.W10_main_arg5 m ρ c),
       (h c Cert.KernelIdeal.main_arg6 (by decide)).trans (Cert.KernelIdeal.Gen.W10_main_arg6 m ρ c),
       (h c Cert.KernelIdeal.main_arg7 (by decide)).trans (Cert.KernelIdeal.Gen.W10_main_arg7 m ρ c),
       (h c Cert.KernelIdeal.main_arg8 (by decide)).trans (Cert.KernelIdeal.Gen.W10_main_arg8 m ρ c),
       (h c Cert.KernelIdeal.main_arg9 (by decide)).trans (Cert.KernelIdeal.Gen.W10_main_arg9 m ρ c),
       (h c Cert.KernelIdeal.main_arg10 (by decide)).trans (Cert.KernelIdeal.Gen.W10_main_arg10 m ρ c),
       (h c Cert.KernelIdeal.main_arg11 (by decide)).trans (Cert.KernelIdeal.Gen.W10_main_arg11 m ρ c),
       (h c Cert.KernelIdeal.main_arg12 (by decide)).trans (Cert.KernelIdeal.Gen.W10_main_arg12 m ρ c),
       (h c Cert.KernelIdeal.main_arg13 (by decide)).trans (Cert.KernelIdeal.Gen.W10_main_arg13 m ρ c),
       (h c Cert.KernelIdeal.main_arg14 (by decide)).trans (Cert.KernelIdeal.Gen.W10_main_arg14 m ρ c),
       (h c Cert.KernelIdeal.main_arg15 (by decide)).trans (Cert.KernelIdeal.Gen.W10_main_arg15 m ρ c),
       (h c Cert.KernelIdeal.main_arg16 (by decide)).trans (Cert.KernelIdeal.Gen.W10_main_arg16 m ρ c),
       (h c Cert.KernelIdeal.main_arg17 (by decide)).trans (Cert.KernelIdeal.Gen.W10_main_arg17 m ρ c)⟩)
      (Cert.KernelIdeal.Named.run_at (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v115_eq, (hagree c).1, (hagree c).2.1, (hagree c).2.2.1, (hagree c).2.2.2.1, (hagree c).2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
    · rw [(hagree c).2.2.2.2.2.2.2.2.2.2.2.1, (hagree c).2.2.2.2.2.2.2.2.2.2.2.2.1, (hagree c).2.2.2.2.2.2.2.2.2.2.2.2.2.1]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
